-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S3x128x128 .f32) (main_arg3 : FVec F S3x128 .f32) (main_arg4 : FVec F S3x128x128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 83
  | .vmem => 39
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S128x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S50000x1, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S1x128x128, .f32⟩
  | .hbm, ⟨32, _⟩ => ⟨S128x128, .f32⟩
  | .hbm, ⟨33, _⟩ => ⟨S1x128x128, .f32⟩
  | .hbm, ⟨34, _⟩ => ⟨S128x128, .f32⟩
  | .hbm, ⟨35, _⟩ => ⟨S1x128, .f32⟩
  | .hbm, ⟨36, _⟩ => ⟨S128, .f32⟩
  | .hbm, ⟨37, _⟩ => ⟨S1x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S1x128x128, .f32⟩
  | .hbm, ⟨53, _⟩ => ⟨S128x128, .f32⟩
  | .hbm, ⟨54, _⟩ => ⟨S1x128x128, .f32⟩
  | .hbm, ⟨55, _⟩ => ⟨S128x128, .f32⟩
  | .hbm, ⟨56, _⟩ => ⟨S1x128, .f32⟩
  | .hbm, ⟨57, _⟩ => ⟨S128, .f32⟩
  | .hbm, ⟨58, _⟩ => ⟨S1x128, .f32⟩
  | .hbm, ⟨59, _⟩ => ⟨S50000x128, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S1x128x128, .f32⟩
  | .hbm, ⟨74, _⟩ => ⟨S128x128, .f32⟩
  | .hbm, ⟨75, _⟩ => ⟨S1x128x128, .f32⟩
  | .hbm, ⟨76, _⟩ => ⟨S128x128, .f32⟩
  | .hbm, ⟨77, _⟩ => ⟨S1x128, .f32⟩
  | .hbm, ⟨78, _⟩ => ⟨S128, .f32⟩
  | .hbm, ⟨79, _⟩ => ⟨S1x128, .f32⟩
  | .hbm, ⟨80, _⟩ => ⟨S50000x128, .f32⟩
  | .hbm, ⟨81, _⟩ => ⟨S1x128, .f32⟩
  | .hbm, ⟨82, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x1, .f32⟩
  | .local _ .vmem, ⟨8, _⟩ => ⟨S5000x1, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S5000x1, .f32⟩
  | .local _ .vmem, ⟨19, _⟩ => ⟨S5000x1, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S128x128, .f32⟩
  | .local _ .vmem, ⟨28, _⟩ => ⟨S1x128, .f32⟩
  | .local _ .vmem, ⟨29, _⟩ => ⟨S5000x1, .f32⟩
  | .local _ .vmem, ⟨30, _⟩ => ⟨S5000x1, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S128x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_6 : Ref sig .tc := ⟨.hbm, 60, rfl⟩
abbrev main_v45 : Ref sig .tc := ⟨.hbm, 61, rfl⟩
abbrev main_v46 : Ref sig .tc := ⟨.hbm, 62, rfl⟩
abbrev main_c_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg3_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem2_0 : DmaSem sig := 36
abbrev cc3_sem3_0 : DmaSem sig := 37
abbrev cc3_sem3_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x1.size a ≤ S50000x1.size a
  hwx0_5 : ∀ i : grid0.Coords, EltTy.bits .f32 = 32 ∨ (Rect.block (s := S50000x1) S5000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S50000x1.size a
  hwx1_5 : ∀ i : grid1.Coords, EltTy.bits .f32 = 32 ∨ (Rect.block (s := S50000x1) S5000x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S50000x1.size a
  hwx2_5 : ∀ i : grid2.Coords, EltTy.bits .f32 = 32 ∨ (Rect.block (s := S50000x1) S5000x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S5000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S5000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v44) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v54) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v56) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v8) S5000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v62) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S1x128 : Shape := ⟨2, ![1, 128]⟩

abbrev nBuf : Space → Nat
  | .hbm => 112
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S128x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S50000x1, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S1x128x128, .f32⟩
  | .hbm, ⟨32, _⟩ => ⟨S128x128, .f32⟩
  | .hbm, ⟨33, _⟩ => ⟨S50000x128, .f32⟩
  | .hbm, ⟨34, _⟩ => ⟨S1x128, .f32⟩
  | .hbm, ⟨35, _⟩ => ⟨S128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S1x128x128, .f32⟩
  | .hbm, ⟨40, _⟩ => ⟨S128x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S1x128x128, .f32⟩
  | .hbm, ⟨62, _⟩ => ⟨S128x128, .f32⟩
  | .hbm, ⟨63, _⟩ => ⟨S50000x128, .f32⟩
  | .hbm, ⟨64, _⟩ => ⟨S1x128, .f32⟩
  | .hbm, ⟨65, _⟩ => ⟨S128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S1x128x128, .f32⟩
  | .hbm, ⟨70, _⟩ => ⟨S128x128, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x128, .f32⟩
  | .hbm, ⟨87, _⟩ => ⟨S_, .f32⟩
  | .hbm, ⟨88, _⟩ => ⟨S50000x128, .f32⟩
  | .hbm, ⟨89, _⟩ => ⟨S800000x1, .i32⟩
  | .hbm, ⟨90, _⟩ => ⟨S50000x128, .f32⟩
  | .hbm, ⟨91, _⟩ => ⟨S1x128x128, .f32⟩
  | .hbm, ⟨92, _⟩ => ⟨S128x128, .f32⟩
  | .hbm, ⟨93, _⟩ => ⟨S50000x128, .f32⟩
  | .hbm, ⟨94, _⟩ => ⟨S1x128, .f32⟩
  | .hbm, ⟨95, _⟩ => ⟨S128, .f32⟩
  | .hbm, ⟨96, _⟩ => ⟨S1x128, .f32⟩
  | .hbm, ⟨97, _⟩ => ⟨S50000x128, .f32⟩
  | .hbm, ⟨98, _⟩ => ⟨S50000x128, .f32⟩
  | .hbm, ⟨99, _⟩ => ⟨S1x128x128, .f32⟩
  | .hbm, ⟨100, _⟩ => ⟨S128x128, .f32⟩
  | .hbm, ⟨101, _⟩ => ⟨S50000x128, .f32⟩
  | .hbm, ⟨102, _⟩ => ⟨S50000x128, .f32⟩
  | .hbm, ⟨103, _⟩ => ⟨S50000x128, .f32⟩
  | .hbm, ⟨104, _⟩ => ⟨S50000x128, .f32⟩
  | .hbm, ⟨105, _⟩ => ⟨S_, .f32⟩
  | .hbm, ⟨106, _⟩ => ⟨S50000x128, .f32⟩
  | .hbm, ⟨107, _⟩ => ⟨S50000x128, .f32⟩
  | .hbm, ⟨108, _⟩ => ⟨S50000x128, .f32⟩
  | .hbm, ⟨109, _⟩ => ⟨S1x128, .f32⟩
  | .hbm, ⟨110, _⟩ => ⟨S50000x128, .f32⟩
  | .hbm, ⟨111, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call0_cst : Ref sig .tc := ⟨.hbm, 45, rfl⟩
abbrev main_call0_v0 : Ref sig .tc := ⟨.hbm, 46, rfl⟩
abbrev main_v33 : Ref sig .tc := ⟨.hbm, 47, rfl⟩
abbrev main_c_3 : Ref sig .tc := ⟨.hbm, 48, rfl⟩
abbrev main_v34 : Ref sig .tc := ⟨.hbm, 49, rfl⟩
abbrev main_v35 : Ref sig .tc := ⟨.hbm, 50, rfl⟩
abbrev main_c_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_call1_cst : Ref sig .tc := ⟨.hbm, 75, rfl⟩
abbrev main_call1_v0 : Ref sig .tc := ⟨.hbm, 76, rfl⟩
abbrev main_v58 : Ref sig .tc := ⟨.hbm, 77, rfl⟩
abbrev main_c_6 : Ref sig .tc := ⟨.hbm, 78, rfl⟩
abbrev main_v59 : Ref sig .tc := ⟨.hbm, 79, rfl⟩
abbrev main_v60 : Ref sig .tc := ⟨.hbm, 80, rfl⟩
abbrev main_c_7 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_8 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_call2_cst : Ref sig .tc := ⟨.hbm, 105, rfl⟩
abbrev main_call2_v0 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x1_S50000x128_0_1 : S50000x1.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RunValue.lean ====
/-
  The idealized kernel's whole run with its RESULT named.

  @main is four pipelined regions among four stretches of host operations.  The buffer contents at each boundary are
  a fold from the launch memory: a host stretch applies its operations, a region replaces its arrays by what its
  write-backs leave.  Every weakly fair execution terminates with every unscoped buffer at the last boundary's
  contents; read at the arguments that is the launch memory, and read at the result buffer it is the last region's
  output array, which the value proof opens boundary by boundary.
-/
import proofs.«133920_j73512660238652_1_alg».proof.Proof.Gen.KernelIdeal.Frame

set_option maxRecDepth 16384

noncomputable section

namespace Cert.KernelIdeal.RunValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.RunValue

end
-- ==== Proof.LibRows.lean ====
/-
  A row vector laid along the rows of a matrix, in the two spellings a kernel and a host program give it.

  A vector `x` of `n` entries becomes the one-row matrix `y` with `y (0, j) = x j` either by a reshape or by a
  broadcast along axis 1: the two are one function (`shapeCast_row_eq_broadcastInDim`).  A one-row matrix `y` is laid
  down `m` rows, `(r, j) ↦ y (0, j)`, either by a broadcast of the vector (preceded by a cast of the one-row matrix to
  its own shape) or by a broadcast along both axes: again one function (`broadcastTo_oneRow_eq_broadcastInDim`).
-/
import Idealize.ShloMosaic.Lib.Pipeline.Value
import Idealize.ShloMosaic.Lib.ValueIdx
import Idealize.ShloMosaic.Lib.KernelVsHost

namespace Cert.LibRows

open Idealize.ShloMosaic Idealize.ShloMosaic.ValueIdx

variable {α : Type}

/-- A vector read as a one-row matrix: the reshape `[n] → [1, n]` and the broadcast along axis 1 both put entry `j`
    at `(0, j)`. -/
theorem shapeCast_row_eq_broadcastInDim {n : Nat} (x : (⟨1, ![n]⟩ : Shape).Idx → α)
    (h1 : (⟨1, ![n]⟩ : Shape).ShapeCasts ⟨2, ![1, n]⟩)
    (hd : (⟨1, ![n]⟩ : Shape).BroadcastsInDim ⟨2, ![1, n]⟩ ![1]) :
    shapeCast ⟨2, ![1, n]⟩ x h1 = broadcastInDim ⟨2, ![1, n]⟩ ![1] hd x := by
  funext i
  have h0 : (i 0).val < 1 := (i 0).isLt
  have e2 := shapeCast_apply x h1 i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · have e : (i 1).val < n := (i 1).isLt; omega
      · rfl)
  exact e2.trans e3.symm

/-- The kernel's broadcast of a one-row matrix (cast to its own shape first) down `m` rows, read at `(r, j)`: the
    row's entry `(0, j)`. -/
theorem broadcastTo_oneRow_apply {m n : Nat} (y : (⟨2, ![1, n]⟩ : Shape).Idx → α)
    (hs : (⟨2, ![1, n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ y hs) hb (ix2 p q) = y (ix2 (0 : Fin 1) q) := by
  rw [shapeCast_self]
  refine broadcastTo_apply y hb _ (ix2 (0 : Fin 1) q) ?_
  intro a
  match a with
  | ⟨0, _⟩ => rfl
  | ⟨1, _⟩ =>
    show q.val = if n = 1 then 0 else q.val
    split
    · have e : q.val < n := q.isLt; omega
    · rfl

/-- A one-row matrix laid down `m` rows: the kernel's broadcast of its same-shape cast is the host's broadcast along
    both axes; at `(r, j)` both read `y (0, j)`. -/
theorem broadcastTo_oneRow_eq_broadcastInDim {m n : Nat} (y : (⟨2, ![1, n]⟩ : Shape).Idx → α)
    (hs : (⟨2, ![1, n]⟩ : Shape).ShapeCasts ⟨2, ![1, n]⟩)
    (hb : (⟨2, ![1, n]⟩ : Shape).Broadcasts ⟨2, ![m, n]⟩)
    (hd : (⟨2, ![1, n]⟩ : Shape).BroadcastsInDim ⟨2, ![m, n]⟩ ![0, 1]) :
    broadcastTo ⟨2, ![m, n]⟩ (shapeCast ⟨2, ![1, n]⟩ y hs) hb = broadcastInDim ⟨2, ![m, n]⟩ ![0, 1] hd y := by
  funext i
  obtain ⟨p, q, rfl⟩ : ∃ (p : Fin m) (q : Fin n), i = ix2 p q := ⟨i 0, i 1, eq_ix2 i⟩
  rw [broadcastInDim_oneRow_apply, broadcastTo_oneRow_apply]

end Cert.LibRows
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.LibKeepdims.lean ====
/-
  The small readings the kernel's body needs at an index: the two keepdims layout forms (a column
  of row results cast to one column, and one column broadcast along the rows), the result index of a
  reduction along the rows with the reduced coordinate put back, a one-bit comparison word widened to
  32 bits and converted to a float as `0` or `1`, the word arithmetic of a row offset below 8192, and
  a fold of `max` from minus infinity as a supremum.
-/
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

namespace Cert.SupCon.Ker

open Idealize.ShloMosaic Idealize.ShloMosaic.ValueIdx

/-! ## The keepdims layout forms -/

/-- A vector `[a]` cast to one column `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast along the rows to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a `[a, b]` array that reduces along the rows into `i`, with column `k`, is `(i, k)`. -/
theorem lift_rows {a b : ℕ} (h : (⟨2, ![a, b]⟩ : Shape).Reduces [1] ⟨1, ![a]⟩) (i : Fin a) (k : Fin b) :
    h.lift (ix1 i) k = ix2 i k :=
  funext fun ax => Fin.ext (by
    match ax with
    | ⟨0, _⟩ => rfl
    | ⟨1, _⟩ => rfl)

/-! ## A comparison word as a float -/

/-- A one-bit word widened to 32 bits and converted as a signed integer is `1` or `0`. -/
theorem sitofp_setWidth (b : BitVec 1) :
    FloatOps.sitofp (F := Ideal) .f32 (b.setWidth 32) = if b = 1#1 then (1 : EReal) else 0 := by
  have e0 : ((0#1 : BitVec 1).setWidth 32).toInt = 0 := by decide
  have e1 : ((1#1 : BitVec 1).setWidth 32).toInt = 1 := by decide
  rcases (by decide : ∀ b : BitVec 1, b = 0#1 ∨ b = 1#1) b with rfl | rfl
  · show (((((0#1 : BitVec 1).setWidth 32).toInt : ℤ) : ℝ) : EReal) = _
    rw [e0, if_neg (by decide)]; simp
  · show (((((1#1 : BitVec 1).setWidth 32).toInt : ℤ) : ℝ) : EReal) = _
    rw [e1, if_pos rfl]; simp

/-- The float of an equality comparison of two words. -/
theorem mask_eq {w : ℕ} (x y : BitVec w) :
    FloatOps.sitofp (F := Ideal) .f32 ((IntOp.cmpi .eq x y).setWidth 32) = if x = y then (1 : EReal) else 0 := by
  rw [sitofp_setWidth]
  exact if_congr IntOp.cmpi_eq rfl rfl

/-- The float of an inequality comparison of two words. -/
theorem mask_ne {w : ℕ} (x y : BitVec w) :
    FloatOps.sitofp (F := Ideal) .f32 ((IntOp.cmpi .ne x y).setWidth 32) = if x = y then (0 : EReal) else 1 := by
  rw [sitofp_setWidth]
  by_cases hxy : x = y
  · rw [if_pos hxy, if_neg (fun h => (IntOp.cmpi_ne.mp h) hxy)]
  · rw [if_neg hxy, if_pos (IntOp.cmpi_ne.mpr hxy)]

/-- Row `128 t + r` as 32-bit words, the block's offset `t * 128` a product of words, meets column `j`
    exactly when the two numbers are equal: nothing wraps below 8192. -/
theorem row_word_eq (t r j : ℕ) (ht : t < 64) (hr : r < 128) (hj : j < 8192) :
    IntOp.addi (Scalar.muli (BitVec.ofNat 32 t) 128#32) (BitVec.ofNat 32 r) = BitVec.ofNat 32 j ↔ 128 * t + r = j := by
  show BitVec.ofNat 32 t * 128#32 + BitVec.ofNat 32 r = BitVec.ofNat 32 j ↔ _
  rw [← BitVec.toNat_inj]
  simp only [BitVec.toNat_add, BitVec.toNat_mul, BitVec.toNat_ofNat]
  omega

/-! ## The largest entry of a row -/

/-- The single-precision word `0xFF800000` is minus infinity. -/
theorem ofBits_negInf : Ideal.ofBits .f32 0xFF800000#32 = ⊥ := by simp [Ideal.ofBits, Ideal.ieee]

/-- A fold of `max` from minus infinity is the supremum. -/
theorem fold_max_bot {ι : Type*} (s : Finset ι) (f : ι → EReal) : s.fold max ⊥ f = s.sup f := rfl

end Cert.SupCon.Ker

end
-- ==== Proof.LibRowOps.lean ====
/-
  Rank-2 arrays read row by row at the exact extended reals, in the two spellings a kernel body and a host program
  give each form: a bias vector laid along every row; a column of per-row results laid along every column; the maximum
  and the sum of a row; the host's plain matrix product as a sum over the contracted coordinate. Each lemma reads the
  form at an index `(p, q)` and says which entries of the operand it depends on.
-/
import Idealize.ShloMosaic.Lib.ValueIdx
import Idealize.ShloMosaic.Lib.Pipeline.Value
import Idealize.ShloMosaic.Lib.KernelVsHost
import Idealize.ShloMosaic.PureOps.Ideal.Laws
import proofs.«133920_j73512660238652_1_alg».proof.Proof.LibDotIdx
import proofs.«133920_j73512660238652_1_alg».proof.Proof.LibKeepdims

noncomputable section

namespace Cert.LibRowOps

open Idealize.ShloMosaic Idealize.ShloMosaic.ValueIdx

variable {α : Type}

/-! ## A vector laid along every row -/

/-- The kernel's spelling: the vector cast to one row, the row broadcast down `m` rows. At `(p, q)` it is entry `q`. -/
theorem rowVec_kernel_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have e : q.val < n := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 to one row, the row broadcast along both axes. At `(p, q)`
    it is entry `q`. -/
theorem rowVec_host_apply {m n : Nat} (x : (⟨1, ![n]⟩ : Shape).Idx → α)
    (hd1 : (⟨1, ![n]⟩ : Shape).BroadcastsInDim ⟨2, ![1, n]⟩ ![1])
    (hd : (⟨2, ![1, n]⟩ : Shape).BroadcastsInDim ⟨2, ![m, n]⟩ ![0, 1]) (p : Fin m) (q : Fin n) :
    broadcastInDim ⟨2, ![m, n]⟩ ![0, 1] hd (broadcastInDim ⟨2, ![1, n]⟩ ![1] hd1 x) (ix2 p q) = x (ix1 q) := by
  rw [broadcastInDim_oneRow_apply]
  refine broadcastInDim_apply ![1] hd1 x (ix2 (0 : Fin 1) q) (ix1 q) ?_
  intro a
  match a with
  | ⟨0, _⟩ =>
    show q.val = if n = 1 then 0 else q.val
    split
    · have e : q.val < n := q.isLt; omega
    · rfl

/-! ## A column of per-row results laid along every column -/

/-- The kernel's spelling: the vector of row results cast to one column, the column broadcast along the rows. At
    `(p, q)` it is entry `p`. -/
theorem colVec_kernel_apply {a b : Nat} (v : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v h1) hb (ix2 p q) = v (ix1 p) := by
  rw [Cert.SupCon.Ker.broadcastTo_a1_ab_apply, Cert.SupCon.Ker.shapeCast_a_a1_apply]

/-- The host's column laid along the columns: one column broadcast along both axes reads, at `(p, q)`, its entry `(p, 0)`. -/
theorem colBcast_host_apply {a b : Nat} (y : (⟨2, ![a, 1]⟩ : Shape).Idx → α)
    (hd : (⟨2, ![a, 1]⟩ : Shape).BroadcastsInDim ⟨2, ![a, b]⟩ ![0, 1]) (p : Fin a) (q : Fin b) :
    broadcastInDim ⟨2, ![a, b]⟩ ![0, 1] hd y (ix2 p q) = y (ix2 p (0 : Fin 1)) :=
  broadcastInDim_apply ![0, 1] hd y (ix2 p q) (ix2 p (0 : Fin 1)) (by
    intro ax
    match ax with
    | ⟨0, _⟩ =>
      show p.val = if a = 1 then 0 else p.val
      split
      · have e : p.val < a := p.isLt; omega
      · rfl
    | ⟨1, _⟩ => rfl)

/-- The host's vector as one column: broadcast along axis 0 it reads, at `(p, 0)`, entry `p`. -/
theorem col1_host_apply {a : Nat} (v : (⟨1, ![a]⟩ : Shape).Idx → α)
    (hd0 : (⟨1, ![a]⟩ : Shape).BroadcastsInDim ⟨2, ![a, 1]⟩ ![0]) (p : Fin a) :
    broadcastInDim ⟨2, ![a, 1]⟩ ![0] hd0 v (ix2 p (0 : Fin 1)) = v (ix1 p) :=
  broadcastInDim_apply ![0] hd0 v (ix2 p (0 : Fin 1)) (ix1 p) (by
    intro ax
    match ax with
    | ⟨0, _⟩ =>
      show p.val = if a = 1 then 0 else p.val
      split
      · have e : p.val < a := p.isLt; omega
      · rfl)

/-- The host's spelling: the vector broadcast along axis 0 to one column, the column broadcast along both axes. At
    `(p, q)` it is entry `p`. -/
theorem colVec_host_apply {a b : Nat} (v : (⟨1, ![a]⟩ : Shape).Idx → α)
    (hd0 : (⟨1, ![a]⟩ : Shape).BroadcastsInDim ⟨2, ![a, 1]⟩ ![0])
    (hd : (⟨2, ![a, 1]⟩ : Shape).BroadcastsInDim ⟨2, ![a, b]⟩ ![0, 1]) (p : Fin a) (q : Fin b) :
    broadcastInDim ⟨2, ![a, b]⟩ ![0, 1] hd (broadcastInDim ⟨2, ![a, 1]⟩ ![0] hd0 v) (ix2 p q) = v (ix1 p) := by
  rw [colBcast_host_apply, col1_host_apply]

/-! ## The pointwise transcendentals at an index -/

theorem hostLog_apply {s : Shape} {φ : FTy} (x : FVec Ideal s φ) (i : s.Idx) : Host.log x i = Ideal.log (x i) := rfl
theorem hostExp_apply {s : Shape} {φ : FTy} (x : FVec Ideal s φ) (i : s.Idx) : Host.exp x i = Ideal.exp (x i) := rfl
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

/-! ## The maximum and the sum of a row -/

/-- The kernel's maximum along the rows, at row `p`: the fold of `max` from the accumulator's value over the row. -/
theorem rowMax_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) := by
  rw [Ideal.multiReduction_maximumf_single]
  have hf : (src ∘ h.lift (ix1 p)) = fun k : Fin b => src (ix2 p k) :=
    funext fun k => congrArg src (Cert.SupCon.Ker.lift_rows h p k)
  exact congrArg (fun f => Finset.fold max (FloatOps.ofBits φ acc) f (Finset.univ : Finset (Fin b))) hf

/-- The host's maximum along the rows, at row `p`: the fold of `max` from the initial value over the row. -/
theorem rowMax_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  have hf : (x ∘ h.lift (ix1 p)) = fun k : Fin b => x (ix2 p k) :=
    funext fun k => congrArg x (Cert.SupCon.Ker.lift_rows h p k)
  exact congrArg (fun f => Finset.fold max (init (Shape.Idx.first hu)) f (Finset.univ : Finset (Fin b))) hf

/-- The kernel's sum along the rows, at row `p`: the sum of the row (the neutral accumulator adds nothing). -/
theorem rowSum_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (Cert.SupCon.Ker.lift_rows h p k)

/-- The host's sum along the rows, at row `p`: the initial value plus the sum of the row. -/
theorem rowSum_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  show Ideal.hostReduceAdd h' x (init (Shape.Idx.first hu)) (ix1 p) = _
  rw [Ideal.hostReduceAdd_single h' h]
  exact congrArg (_ + ·) (Finset.sum_congr rfl fun k _ => congrArg x (Cert.SupCon.Ker.lift_rows h p k))

/-! ## The host's plain matrix product -/

/-- Rows against columns on the host, `[m, k] × [k, n] → [m, n]`: at `(a, b)` the sum over the contracted coordinate
    of the products of the two entries. -/
theorem dotGeneral_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) :=
  (congrFun (matmul_zero_eq_dotGeneral (⟨[1], [0], [0], [1], [], [], w⟩ : DotDims _ _ _) prec A B) (ix2 a b)).symm.trans
    (DotIdx.matmul_plain_zero_apply w prec A B a b)

end Cert.LibRowOps

end
-- ==== Proof.LayerSpec.lean ====
/-
  One graph-convolution layer and the final linear map, entry by entry, over the extended reals.

  For node features `x` (one row per node), the per-node sum `msg` of the neighbours' rows, two square weight
  matrices, a bias vector `b` and a per-node weight `d` (the node's out-degree), one layer puts at node `r`, feature `j`

      max ( ( Σ_k msg(r,k)·Wrel(k,j) + Σ_k x(r,k)·Wroot(k,j) + b(j) ) · d(r) , 0 ).

  A kernel computes it on a block of rows as (msg·Wrel + x·Wroot) + b, the bias read from a one-row matrix and the
  weight from a one-column matrix; a host program computes it on all rows as (msg·Wrel + b) + x·Wroot, the bias a
  vector broadcast along the rows and the weight a vector broadcast along the columns.  Addition of extended reals
  is commutative and associative, so both are the expression above (`kernel_layer_apply`, `host_layer_apply`);
  nothing here needs the entries to be finite.  The final map is  Σ_k x(r,k)·W(k,j) + b(j)  in both spellings.
-/
import Idealize.ShloMosaic.Lib.ValueIdx
import Idealize.ShloMosaic.Lib.Pipeline.Value
import Idealize.ShloMosaic.Lib.ValueLayout
import Idealize.ShloMosaic.PureOps.Ideal.Laws
import proofs.«133920_j73512660238652_1_alg».proof.Proof.LibRows
import proofs.«133920_j73512660238652_1_alg».proof.Proof.LibRowOps

noncomputable section

namespace Cert.GraphConv

open Idealize.ShloMosaic Idealize.ShloMosaic.ValueIdx

variable {n : ℕ}

/-- A matrix of extended reals with `a` rows and `b` columns. -/
abbrev Mat (a b : ℕ) : Type := FVec Ideal ⟨2, ![a, b]⟩ .f32

/-- Entry `(r, j)` of one layer. -/
def layerAt (msg x : Mat n 128) (wrel wroot : Mat 128 128) (b : Fin 128 → EReal) (d : Fin n → EReal)
    (r : Fin n) (j : Fin 128) : EReal :=
  max ((((∑ k : Fin 128, msg (ix2 r k) * wrel (ix2 k j)) + ∑ k : Fin 128, x (ix2 r k) * wroot (ix2 k j)) + b j) * d r) 0

/-- One layer as a whole matrix. -/
def layer (msg x : Mat n 128) (wrel wroot : Mat 128 128) (b : Fin 128 → EReal) (d : Fin n → EReal) : Mat n 128 :=
  fun i => layerAt msg x wrel wroot b d (i 0) (i 1)

/-- Entry `(r, j)` of the final linear map. -/
def finalAt (x : Mat n 128) (w : Mat 128 128) (b : Fin 128 → EReal) (r : Fin n) (j : Fin 128) : EReal :=
  (∑ k : Fin 128, x (ix2 r k) * w (ix2 k j)) + b j

/-- The final linear map as a whole matrix. -/
def final (x : Mat n 128) (w : Mat 128 128) (b : Fin 128 → EReal) : Mat n 128 :=
  fun i => finalAt x w b (i 0) (i 1)

/-- A vector reshaped to one row reads, at `(0, q)`, the vector's entry `q`. -/
theorem shapeCast_row_apply {α : Type} {k : ℕ} (x : (⟨1, ![k]⟩ : Shape).Idx → α)
    (h : (⟨1, ![k]⟩ : Shape).ShapeCasts ⟨2, ![1, k]⟩) (q : Fin k) :
    shapeCast ⟨2, ![1, k]⟩ x h (ix2 (0 : Fin 1) q) = x (ix1 q) :=
  shapeCast_apply x h _ (ix1 q) (by
    rw [Shape.rowMajor_val_two, Shape.rowMajor_val_one]
    show q.val = 0 * k + q.val
    omega)

/-- The scalar zero broadcast to every entry. -/
theorem zero_bcast_apply {s : Shape} (hz : (⟨0, ![]⟩ : Shape).BroadcastsInDim s ![]) (i : s.Idx) :
    broadcastInDim s ![] hz (constant (F := Ideal) ⟨0, ![]⟩ .f32 0x00000000#32) i = 0 := by
  rw [broadcastInDim_apply ![] hz _ i ix0 (fun a => a.elim0), constant_apply, Ideal.ofBits_zero_f32]

/-- The kernel's layer on a block of `n` rows, read at `(r, j)`. -/
theorem kernel_layer_apply (v0 v3 : Mat n 128) (v5 v8 : Mat 128 128) (v14 : Mat 1 128) (v18 : Mat n 1)
    (h0 : (⟨2, ![n, 128]⟩ : Shape).ShapeCasts ⟨2, ![n, 128]⟩)
    (hw : (⟨2, ![128, 128]⟩ : Shape).ShapeCasts ⟨2, ![128, 128]⟩)
    (h1 : (⟨2, ![1, 128]⟩ : Shape).ShapeCasts ⟨2, ![1, 128]⟩)
    (hc : (⟨2, ![n, 1]⟩ : Shape).ShapeCasts ⟨2, ![n, 1]⟩)
    (hb1 : (⟨2, ![1, 128]⟩ : Shape).Broadcasts ⟨2, ![n, 128]⟩)
    (hbc : (⟨2, ![n, 1]⟩ : Shape).Broadcasts ⟨2, ![n, 128]⟩)
    (hlt : FTy.bf16.bits < FTy.f32.bits)
    (w : DotDims.WF ⟨2, ![n, 128]⟩ ⟨2, ![128, 128]⟩ ⟨2, ![n, 128]⟩ [1] [0] [0] [1] [] [])
    (r : Fin n) (j : Fin 128) :
    maximumf (mulf (addf (addf
          (matmul (⟨[1], [0], [0], [1], [], [], w⟩ : DotDims _ _ _) none
            (truncf .bf16 (shapeCast ⟨2, ![n, 128]⟩ v0 h0) hlt) (truncf .bf16 (shapeCast ⟨2, ![128, 128]⟩ v5 hw) hlt)
            (constant (F := Ideal) ⟨2, ![n, 128]⟩ .f32 0x00000000#32))
          (matmul (⟨[1], [0], [0], [1], [], [], w⟩ : DotDims _ _ _) none
            (truncf .bf16 v3 hlt) (truncf .bf16 (shapeCast ⟨2, ![128, 128]⟩ v8 hw) hlt)
            (constant (F := Ideal) ⟨2, ![n, 128]⟩ .f32 0x00000000#32)))
          (broadcastTo ⟨2, ![n, 128]⟩ (shapeCast ⟨2, ![1, 128]⟩ v14 h1) hb1))
          (broadcastTo ⟨2, ![n, 128]⟩ (shapeCast ⟨2, ![n, 1]⟩ v18 hc) hbc))
        (broadcast ⟨2, ![n, 128]⟩ (Scalar.ofBits (F := Ideal) .f32 0x00000000#32)) (ix2 r j)
      = layerAt v0 v3 v5 v8 (fun q => v14 (ix2 (0 : Fin 1) q)) (fun p => v18 (ix2 p (0 : Fin 1))) r j := by
  rw [maximumf_apply, mulf_apply, addf_apply, addf_apply, broadcast_apply,
    DotIdx.matmul_plain_zero_apply, DotIdx.matmul_plain_zero_apply,
    Cert.LibRows.broadcastTo_oneRow_apply, shapeCast_self, Cert.SupCon.Ker.broadcastTo_a1_ab_apply]
  simp only [truncf_apply, shapeCast_self]
  unfold layerAt
  congr 1
  simp only [Scalar.ofBits, Ideal.ofBits_def, Ideal.ofBits_zero_f32]

/-- The same with the node features also passed through a cast to their own shape (layers after the first). -/
theorem kernel_layer_cast_apply (v0 v3 : Mat n 128) (v5 v8 : Mat 128 128) (v14 : Mat 1 128) (v18 : Mat n 1)
    (h0 : (⟨2, ![n, 128]⟩ : Shape).ShapeCasts ⟨2, ![n, 128]⟩)
    (hw : (⟨2, ![128, 128]⟩ : Shape).ShapeCasts ⟨2, ![128, 128]⟩)
    (h1 : (⟨2, ![1, 128]⟩ : Shape).ShapeCasts ⟨2, ![1, 128]⟩)
    (hc : (⟨2, ![n, 1]⟩ : Shape).ShapeCasts ⟨2, ![n, 1]⟩)
    (hb1 : (⟨2, ![1, 128]⟩ : Shape).Broadcasts ⟨2, ![n, 128]⟩)
    (hbc : (⟨2, ![n, 1]⟩ : Shape).Broadcasts ⟨2, ![n, 128]⟩)
    (hlt : FTy.bf16.bits < FTy.f32.bits)
    (w : DotDims.WF ⟨2, ![n, 128]⟩ ⟨2, ![128, 128]⟩ ⟨2, ![n, 128]⟩ [1] [0] [0] [1] [] [])
    (r : Fin n) (j : Fin 128) :
    maximumf (mulf (addf (addf
          (matmul (⟨[1], [0], [0], [1], [], [], w⟩ : DotDims _ _ _) none
            (truncf .bf16 (shapeCast ⟨2, ![n, 128]⟩ v0 h0) hlt) (truncf .bf16 (shapeCast ⟨2, ![128, 128]⟩ v5 hw) hlt)
            (constant (F := Ideal) ⟨2, ![n, 128]⟩ .f32 0x00000000#32))
          (matmul (⟨[1], [0], [0], [1], [], [], w⟩ : DotDims _ _ _) none
            (truncf .bf16 (shapeCast ⟨2, ![n, 128]⟩ v3 h0) hlt) (truncf .bf16 (shapeCast ⟨2, ![128, 128]⟩ v8 hw) hlt)
            (constant (F := Ideal) ⟨2, ![n, 128]⟩ .f32 0x00000000#32)))
          (broadcastTo ⟨2, ![n, 128]⟩ (shapeCast ⟨2, ![1, 128]⟩ v14 h1) hb1))
          (broadcastTo ⟨2, ![n, 128]⟩ (shapeCast ⟨2, ![n, 1]⟩ v18 hc) hbc))
        (broadcast ⟨2, ![n, 128]⟩ (Scalar.ofBits (F := Ideal) .f32 0x00000000#32)) (ix2 r j)
      = layerAt v0 v3 v5 v8 (fun q => v14 (ix2 (0 : Fin 1) q)) (fun p => v18 (ix2 p (0 : Fin 1))) r j := by
  rw [shapeCast_self v3 h0]
  exact kernel_layer_apply v0 v3 v5 v8 v14 v18 h0 hw h1 hc hb1 hbc hlt w r j

/-- The host program's layer on `n` rows, read at `(r, j)`. -/
theorem host_layer_apply (msg x : Mat n 128) (wrel wroot : Mat 128 128)
    (b : FVec Ideal ⟨1, ![128]⟩ .f32) (d : FVec Ideal ⟨1, ![n]⟩ .f32)
    (w : DotDims.WF ⟨2, ![n, 128]⟩ ⟨2, ![128, 128]⟩ ⟨2, ![n, 128]⟩ [1] [0] [0] [1] [] [])
    (hd1 : (⟨1, ![128]⟩ : Shape).BroadcastsInDim ⟨2, ![1, 128]⟩ ![1])
    (hd : (⟨2, ![1, 128]⟩ : Shape).BroadcastsInDim ⟨2, ![n, 128]⟩ ![0, 1])
    (hc0 : (⟨1, ![n]⟩ : Shape).BroadcastsInDim ⟨2, ![n, 1]⟩ ![0])
    (hc : (⟨2, ![n, 1]⟩ : Shape).BroadcastsInDim ⟨2, ![n, 128]⟩ ![0, 1])
    (hz : (⟨0, ![]⟩ : Shape).BroadcastsInDim ⟨2, ![n, 128]⟩ ![])
    (r : Fin n) (j : Fin 128) :
    maximumf (mulf (addf (addf
          (Host.dotGeneral (⟨[1], [0], [0], [1], [], [], w⟩ : DotDims _ _ _) none msg wrel)
          (broadcastInDim ⟨2, ![n, 128]⟩ ![0, 1] hd (broadcastInDim ⟨2, ![1, 128]⟩ ![1] hd1 b)))
          (Host.dotGeneral (⟨[1], [0], [0], [1], [], [], w⟩ : DotDims _ _ _) none x wroot))
          (broadcastInDim ⟨2, ![n, 128]⟩ ![0, 1] hc (broadcastInDim ⟨2, ![n, 1]⟩ ![0] hc0 d)))
        (broadcastInDim ⟨2, ![n, 128]⟩ ![] hz (constant (F := Ideal) ⟨0, ![]⟩ .f32 0x00000000#32)) (ix2 r j)
      = layerAt msg x wrel wroot (fun q => b (ix1 q)) (fun p => d (ix1 p)) r j := by
  rw [maximumf_apply, mulf_apply, addf_apply, addf_apply, zero_bcast_apply,
    Cert.LibRowOps.dotGeneral_plain_apply, Cert.LibRowOps.dotGeneral_plain_apply,
    Cert.LibRowOps.rowVec_host_apply, Cert.LibRowOps.colVec_host_apply]
  unfold layerAt
  rw [add_right_comm]

/-- The kernel's final map on a block of `n` rows, read at `(r, j)`. -/
theorem kernel_final_apply (v0 : Mat n 128) (v3 : Mat 128 128) (v6 : Mat 1 128)
    (h0 : (⟨2, ![n, 128]⟩ : Shape).ShapeCasts ⟨2, ![n, 128]⟩)
    (h1 : (⟨2, ![1, 128]⟩ : Shape).ShapeCasts ⟨2, ![1, 128]⟩)
    (hb1 : (⟨2, ![1, 128]⟩ : Shape).Broadcasts ⟨2, ![n, 128]⟩)
    (hlt : FTy.bf16.bits < FTy.f32.bits)
    (w : DotDims.WF ⟨2, ![n, 128]⟩ ⟨2, ![128, 128]⟩ ⟨2, ![n, 128]⟩ [1] [0] [0] [1] [] [])
    (r : Fin n) (j : Fin 128) :
    addf (matmul (⟨[1], [0], [0], [1], [], [], w⟩ : DotDims _ _ _) none
            (truncf .bf16 (shapeCast ⟨2, ![n, 128]⟩ v0 h0) hlt) (truncf .bf16 v3 hlt)
            (constant (F := Ideal) ⟨2, ![n, 128]⟩ .f32 0x00000000#32))
          (broadcastTo ⟨2, ![n, 128]⟩ (shapeCast ⟨2, ![1, 128]⟩ v6 h1) hb1) (ix2 r j)
      = finalAt v0 v3 (fun q => v6 (ix2 (0 : Fin 1) q)) r j := by
  rw [addf_apply, DotIdx.matmul_plain_zero_apply, Cert.LibRows.broadcastTo_oneRow_apply]
  simp only [truncf_apply, shapeCast_self]
  rfl

/-- The host program's final map on `n` rows, read at `(r, j)`. -/
theorem host_final_apply (x : Mat n 128) (wl : Mat 128 128) (b : FVec Ideal ⟨1, ![128]⟩ .f32)
    (w : DotDims.WF ⟨2, ![n, 128]⟩ ⟨2, ![128, 128]⟩ ⟨2, ![n, 128]⟩ [1] [0] [0] [1] [] [])
    (hd1 : (⟨1, ![128]⟩ : Shape).BroadcastsInDim ⟨2, ![1, 128]⟩ ![1])
    (hd : (⟨2, ![1, 128]⟩ : Shape).BroadcastsInDim ⟨2, ![n, 128]⟩ ![0, 1])
    (r : Fin n) (j : Fin 128) :
    addf (Host.dotGeneral (⟨[1], [0], [0], [1], [], [], w⟩ : DotDims _ _ _) none x wl)
          (broadcastInDim ⟨2, ![n, 128]⟩ ![0, 1] hd (broadcastInDim ⟨2, ![1, 128]⟩ ![1] hd1 b)) (ix2 r j)
      = finalAt x wl (fun q => b (ix1 q)) r j := by
  rw [addf_apply, Cert.LibRowOps.dotGeneral_plain_apply, Cert.LibRowOps.rowVec_host_apply]
  rfl

end Cert.GraphConv

end
-- ==== Proof.GlueK.lean ====
/-
  The graph-structural host operations both programs share, as named functions of the argument arrays.

  The edge list `e` has two rows, the sources and the destinations of the edges.  A node's weight is the number of edges
  leaving it (`deg`: ones scattered-and-added at the sources).  The aggregated messages of node features `x` put at
  node `v` the sum of the rows x[src] over the edges that end in `v` (`agg`: a row gather at the sources — a negative index
  counted from the end — scattered-and-added at the destinations).  Layer `i` uses slice `i` of each stacked weight
  array (`wsl i`) and of the stacked biases (`bsl i`).  None of these is opened: both programs apply the same ones.
-/
import proofs.«133920_j73512660238652_1_alg».proof.Proof.Gen.KernelIdeal
import proofs.«133920_j73512660238652_1_alg».proof.Proof.LayerSpec

noncomputable section

namespace Cert.KernelIdeal.Glue

open Cert.KernelIdeal Cert.KernelIdeal.Gen Idealize.ShloMosaic Idealize.ShloMosaic.TcCoe Cert.GraphConv

/-- The edges' source nodes. -/
def src (e : (⟨S2x800000, .i32⟩ : BufTy).Contents (Elt Ideal)) : (⟨S800000, .i32⟩ : BufTy).Contents (Elt Ideal) :=
  shapeCast S800000 (extractStridedSlice S1x800000 ![0, 0] e slices_S2x800000_S1x800000_0_0) shapeCasts_S1x800000_S800000

/-- The edges' destination nodes. -/
def dst (e : (⟨S2x800000, .i32⟩ : BufTy).Contents (Elt Ideal)) : (⟨S800000, .i32⟩ : BufTy).Contents (Elt Ideal) :=
  shapeCast S800000 (extractStridedSlice S1x800000 ![1, 0] e slices_S2x800000_S1x800000_1_0) shapeCasts_S1x800000_S800000

/-- Each node's out-degree. -/
def deg (e : (⟨S2x800000, .i32⟩ : BufTy).Contents (Elt Ideal)) : (⟨S50000, .f32⟩ : BufTy).Contents (Elt Ideal) :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 (src e))
    (broadcastInDim S800000 ![] bcast_S_S800000 (constant (F := Ideal) S_ .f32 0x3F800000#32))

/-- The neighbours' rows of `x` summed into each destination node. -/
def agg (x : (⟨S50000x128, .f32⟩ : BufTy).Contents (Elt Ideal)) (e : (⟨S2x800000, .i32⟩ : BufTy).Contents (Elt Ideal)) :
    (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 (dst e))
    (Host.gather gather_S50000x128_S800000x1_S800000x128_1_0_n_n_0_1_1128 x
      (broadcastInDim S800000x1 ![0] bcast_S800000_S800000x1_0
        (select (cmpi .slt (src e) (broadcastInDim S800000 ![] bcast_S_S800000 (constantI S_ 32 0#32)))
          (addi (src e) (broadcastInDim S800000 ![] bcast_S_S800000 (constantI S_ 32 50000#32))) (src e))))

/-- Slice 0, 1, 2 of a stack of three square matrices. -/
def wsl0 (w : (⟨S3x128x128, .f32⟩ : BufTy).Contents (Elt Ideal)) : (⟨S128x128, .f32⟩ : BufTy).Contents (Elt Ideal) :=
  shapeCast S128x128 (extractStridedSlice S1x128x128 ![0, 0, 0] w slices_S3x128x128_S1x128x128_0_0_0) shapeCasts_S1x128x128_S128x128
def wsl1 (w : (⟨S3x128x128, .f32⟩ : BufTy).Contents (Elt Ideal)) : (⟨S128x128, .f32⟩ : BufTy).Contents (Elt Ideal) :=
  shapeCast S128x128 (extractStridedSlice S1x128x128 ![1, 0, 0] w slices_S3x128x128_S1x128x128_1_0_0) shapeCasts_S1x128x128_S128x128
def wsl2 (w : (⟨S3x128x128, .f32⟩ : BufTy).Contents (Elt Ideal)) : (⟨S128x128, .f32⟩ : BufTy).Contents (Elt Ideal) :=
  shapeCast S128x128 (extractStridedSlice S1x128x128 ![2, 0, 0] w slices_S3x128x128_S1x128x128_2_0_0) shapeCasts_S1x128x128_S128x128

/-- Row 0, 1, 2 of a stack of three bias vectors. -/
def bsl0 (b : (⟨S3x128, .f32⟩ : BufTy).Contents (Elt Ideal)) : (⟨S128, .f32⟩ : BufTy).Contents (Elt Ideal) :=
  shapeCast S128 (extractStridedSlice S1x128 ![0, 0] b slices_S3x128_S1x128_0_0) shapeCasts_S1x128_S128
def bsl1 (b : (⟨S3x128, .f32⟩ : BufTy).Contents (Elt Ideal)) : (⟨S128, .f32⟩ : BufTy).Contents (Elt Ideal) :=
  shapeCast S128 (extractStridedSlice S1x128 ![1, 0] b slices_S3x128_S1x128_1_0) shapeCasts_S1x128_S128
def bsl2 (b : (⟨S3x128, .f32⟩ : BufTy).Contents (Elt Ideal)) : (⟨S128, .f32⟩ : BufTy).Contents (Elt Ideal) :=
  shapeCast S128 (extractStridedSlice S1x128 ![2, 0] b slices_S3x128_S1x128_2_0) shapeCasts_S1x128_S128

/-- One layer from node features `x`: aggregate, transform with the given slices, weight by the degree, clamp at 0. -/
def step (wrel wroot : (⟨S128x128, .f32⟩ : BufTy).Contents (Elt Ideal)) (b : (⟨S128, .f32⟩ : BufTy).Contents (Elt Ideal))
    (e : (⟨S2x800000, .i32⟩ : BufTy).Contents (Elt Ideal)) (x : (⟨S50000x128, .f32⟩ : BufTy).Contents (Elt Ideal)) :
    (⟨S50000x128, .f32⟩ : BufTy).Contents (Elt Ideal) :=
  layer (n := 50000) (agg x e) x wrel wroot (fun q => b (ValueIdx.ix1 q)) (fun r => deg e (ValueIdx.ix1 r))

/-- The whole network: three layers, then the final linear map. -/
def net (x : (⟨S50000x128, .f32⟩ : BufTy).Contents (Elt Ideal)) (e : (⟨S2x800000, .i32⟩ : BufTy).Contents (Elt Ideal))
    (wrel : (⟨S3x128x128, .f32⟩ : BufTy).Contents (Elt Ideal)) (brel : (⟨S3x128, .f32⟩ : BufTy).Contents (Elt Ideal))
    (wroot : (⟨S3x128x128, .f32⟩ : BufTy).Contents (Elt Ideal)) (wlin : (⟨S128x128, .f32⟩ : BufTy).Contents (Elt Ideal))
    (blin : (⟨S128, .f32⟩ : BufTy).Contents (Elt Ideal)) : (⟨S50000x128, .f32⟩ : BufTy).Contents (Elt Ideal) :=
  final (n := 50000)
    (step (wsl2 wrel) (wsl2 wroot) (bsl2 brel) e
      (step (wsl1 wrel) (wsl1 wroot) (bsl1 brel) e
        (step (wsl0 wrel) (wsl0 wroot) (bsl0 brel) e x)))
    wlin (fun q => blin (ValueIdx.ix1 q))

end Cert.KernelIdeal.Glue

end
-- ==== Proof.Region0.lean ====
/-
  Region 0: what the layer kernel leaves in its output array.

  The grid has ten points; point `t` reads rows 5000·t … 5000·t + 4999 of the aggregated messages, of the node features
  and of the degree column, reads both weight matrices and the bias row whole, and writes the same rows of the output.
  So row `r` of the output is written exactly once, by point r / 5000, and holds the layer's value at row `r` computed
  from row `r` of the inputs: the output array is the layer of the whole input arrays.
-/
import proofs.«133920_j73512660238652_1_alg».proof.Proof.Gen.KernelIdeal.Frame
import proofs.«133920_j73512660238652_1_alg».proof.Proof.LayerSpec
import Idealize.ShloMosaic.Lib.Pipeline.Value

set_option maxRecDepth 16384

noncomputable section

namespace Cert.KernelIdeal.Region0

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at `(p, q)` of a block. -/
theorem pay_apply (x0 x1 : Mat 5000 128) (x2 x3 : Mat 128 128) (x4 : Mat 1 128) (x5 : Mat 5000 1)
    (p : Fin 5000) (q : Fin 128) :
    k0_pay1 (F := Ideal) x0 x1 x2 x3 x4 x5 (ix2 p q)
      = layerAt x0 x1 x2 x3 (fun q => x4 (ix2 (0 : Fin 1) q)) (fun p => x5 (ix2 p (0 : Fin 1))) p q :=
  kernel_layer_apply x0 x1 x2 x3 x4 x5 _ _ _ _ _ _ _ _ p q

/-- A layer entry depends on its inputs only through the row and the shared operands: blocks that agree with the
    whole arrays row by row give the whole arrays' entry. -/
theorem layerAt_block {n : ℕ} (A0 A1 : Mat n 128) (W2 W3 : Mat 128 128) (B : Mat 1 128) (D : Mat n 1)
    (x0 x1 : Mat 5000 128) (x2 x3 : Mat 128 128) (x4 : Mat 1 128) (x5 : Mat 5000 1) (row : Fin 5000 → Fin n)
    (h0 : ∀ p k, x0 (ix2 p k) = A0 (ix2 (row p) k)) (h1 : ∀ p k, x1 (ix2 p k) = A1 (ix2 (row p) k))
    (h2 : ∀ k q, x2 (ix2 k q) = W2 (ix2 k q)) (h3 : ∀ k q, x3 (ix2 k q) = W3 (ix2 k q))
    (h4 : ∀ q, x4 (ix2 (0 : Fin 1) q) = B (ix2 (0 : Fin 1) q))
    (h5 : ∀ p, x5 (ix2 p (0 : Fin 1)) = D (ix2 (row p) (0 : Fin 1))) (p : Fin 5000) (q : Fin 128) :
    layerAt x0 x1 x2 x3 (fun q => x4 (ix2 (0 : Fin 1) q)) (fun p => x5 (ix2 p (0 : Fin 1))) p q
      = layerAt A0 A1 W2 W3 (fun q => B (ix2 (0 : Fin 1) q)) (fun r => D (ix2 r (0 : Fin 1))) (row p) q := by
  unfold layerAt
  simp only [h0, h1, h2, h3, h4, h5]

/-- The printed index maps over the grid: the row-blocked windows move with the output's block, the shared ones stay at
    block (0, 0), and the output's block index is the point's number. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The row of the whole arrays that row `p` of point `t`'s blocks is. -/
def rowOf (t : Fin cfg0.N) (p : Fin 5000) : Fin 50000 :=
  ⟨t.val * 5000 + p.val, by have h : t.val < 10 := by have h1 : t.val < grid0.N := t.isLt; have h2 := N_0; omega
                            have := p.isLt; omega⟩

/-- What point `t` writes back is block `t` of the layer of the whole arrays as the region finds them. -/
theorem flushed_eq (c : Dev nD) (t : Fin cfg0.N) :
    (dat0 V c).flushed 6 t = ((cfg0.win 6).blk t).view.read (Elt Ideal)
      (layer (n := 50000) (V c main_v18) (V c main_arg0) (V c main_v20) (V c main_v22)
        (fun q => V c main_v25 (ix2 (0 : Fin 1) q)) (fun r => V c main_v8 (ix2 r (0 : Fin 1)))) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz,
    View.ld_unit_zero (S := S1x128) hz, View.ld_unit_zero (S := S5000x1) hz]
  obtain ⟨e00, e01, e10, e11, e20, e21, e30, e31, e40, e41, e50, e51, e60, e61⟩ := idx_facts t
  funext j
  show k0_pay1 (F := Ideal) (iblk0 V c 0 t) (iblk0 V c 1 t) (iblk0 V c 2 t) (iblk0 V c 3 t) (iblk0 V c 4 t) (iblk0 V c 5 t) j
    = layerAt (n := 50000) (V c main_v18) (V c main_arg0) (V c main_v20) (V c main_v22)
        (fun q => V c main_v25 (ix2 (0 : Fin 1) q)) (fun r => V c main_v8 (ix2 r (0 : Fin 1)))
        ((((cfg0.win 6).blk t).view.emb j) 0) ((((cfg0.win 6).blk t).view.emb j) 1)
  have hr : (((cfg0.win 6).blk t).view.emb j) 0 = rowOf t (j 0) := Fin.ext (by
    show win0_6.index t (0 : Fin 2) * 5000 + 1 * (j 0).val = t.val * 5000 + (j 0).val; omega)
  have hq : (((cfg0.win 6).blk t).view.emb j) 1 = j 1 := Fin.ext (by
    show win0_6.index t (1 : Fin 2) * 128 + 1 * (j 1).val = (j 1).val; omega)
  rw [hr, hq]
  refine (congrArg (k0_pay1 (F := Ideal) (iblk0 V c 0 t) (iblk0 V c 1 t) (iblk0 V c 2 t) (iblk0 V c 3 t) (iblk0 V c 4 t) (iblk0 V c 5 t)) (eq_ix2 j)).trans ?_
  refine (pay_apply _ _ _ _ _ _ (j 0) (j 1)).trans ?_
  refine layerAt_block (V c main_v18) (V c main_arg0) (V c main_v20) (V c main_v22) (V c main_v25) (V c main_v8)
    _ _ _ _ _ _ (rowOf t) ?_ ?_ ?_ ?_ ?_ ?_ (j 0) (j 1)
  · intro p k
    show V c main_v18 (((cfg0.win 0).blk t).view.emb (ix2 p k)) = V c main_v18 (ix2 (rowOf t p) k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · intro p k
    show V c main_arg0 (((cfg0.win 1).blk t).view.emb (ix2 p k)) = V c main_arg0 (ix2 (rowOf t p) k)
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 128 + 1 * k.val = k.val; omega
  · intro k q
    show V c main_v20 (((cfg0.win 2).blk t).view.emb (ix2 k q)) = V c main_v20 (ix2 k q)
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = q.val; omega
  · intro k q
    show V c main_v22 (((cfg0.win 3).blk t).view.emb (ix2 k q)) = V c main_v22 (ix2 k q)
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  · intro q
    show V c main_v25 (((cfg0.win 4).blk t).view.emb (ix2 (0 : Fin 1) q)) = V c main_v25 (ix2 (0 : Fin 1) q)
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q.val = q.val; omega
  · intro p
    show V c main_v8 (((cfg0.win 5).blk t).view.emb (ix2 p (0 : Fin 1))) = V c main_v8 (ix2 (rowOf t p) (0 : Fin 1))
    refine congrArg _ (funext fun a => Fin.ext ?_)
    match a with
    | ⟨0, _⟩ => show win0_5.index t (0 : Fin 2) * 5000 + 1 * p.val = t.val * 5000 + p.val; omega
    | ⟨1, _⟩ => show win0_5.index t (1 : Fin 2) * 1 + 1 * 0 = 0; omega

/-- An index of the output array is in point `t`'s block iff each coordinate is in the block's range on its axis. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v26).slice (win0_6.rect t)).set ↔ _
  rw [View.set_slice_whole, Rect.mem_set_unit]
  exact Iff.rfl

/-- Every row is written by the point its row number divided by 5000 names. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : grid0.N = 10 := N_0
  refine ⟨⟨(i 0).val / 5000, by show (i 0).val / 5000 < grid0.N; omega⟩, flush0_6 _, ?_⟩
  rw [mem_blk]
  obtain ⟨e00, e01, e10, e11, e20, e21, e30, e31, e40, e41, e50, e51, e60, e61⟩ :=
    idx_facts ⟨(i 0).val / 5000, by show (i 0).val / 5000 < grid0.N; omega⟩
  intro a
  match a with
  | ⟨0, _⟩ =>
    show win0_6.index _ (0 : Fin 2) * 5000 ≤ (i 0).val ∧ (i 0).val < win0_6.index _ (0 : Fin 2) * 5000 + 5000
    rw [e60]; show (i 0).val / 5000 * 5000 ≤ (i 0).val ∧ (i 0).val < (i 0).val / 5000 * 5000 + 5000; omega
  | ⟨1, _⟩ =>
    show win0_6.index _ (1 : Fin 2) * 128 ≤ (i 1).val ∧ (i 1).val < win0_6.index _ (1 : Fin 2) * 128 + 128
    rw [e61]; omega

/-- THE OUTPUT ARRAY after the region: the layer of the whole arrays the region found. -/
theorem out_eq (c : Dev nD) :
    (dat0 V c).arrAt 6 cfg0.N
      = layer (n := 50000) (V c main_v18) (V c main_arg0) (V c main_v20) (V c main_v22)
          (fun q => V c main_v25 (ix2 (0 : Fin 1) q)) (fun r => V c main_v8 (ix2 r (0 : Fin 1))) :=
  (dat0 V c).arrAt_eq_of_cover 6 _ (fun t _ => flushed_eq V c t) (cover)

end Cert.KernelIdeal.Region0

end
-- ==== Proof.Region1.lean ====
/-
  Region 1: what the layer kernel leaves in its output array.

  The grid has ten points; point `t` reads rows 5000·t … 5000·t + 4999 of the aggregated messages, of the node features
  and of the degree column, reads both weight matrices and the bias row whole, and writes the same rows of the output.
  So row `r` of the output is written exactly once, by point r / 5000, and holds the layer's value at row `r` computed
  from row `r` of the inputs: the output array is the layer of the whole input arrays.
-/
import proofs.«133920_j73512660238652_1_alg».proof.Proof.Gen.KernelIdeal.Frame
import proofs.«133920_j73512660238652_1_alg».proof.Proof.LayerSpec
import Idealize.ShloMosaic.Lib.Pipeline.Value

set_option maxRecDepth 16384

noncomputable section

namespace Cert.KernelIdeal.Region1

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at `(p, q)` of a block. -/
theorem pay_apply (x0 x1 : Mat 5000 128) (x2 x3 : Mat 128 128) (x4 : Mat 1 128) (x5 : Mat 5000 1)
    (p : Fin 5000) (q : Fin 128) :
    k1_pay1 (F := Ideal) x0 x1 x2 x3 x4 x5 (ix2 p q)
      = layerAt x0 x1 x2 x3 (fun q => x4 (ix2 (0 : Fin 1) q)) (fun p => x5 (ix2 p (0 : Fin 1))) p q :=
  kernel_layer_cast_apply x0 x1 x2 x3 x4 x5 _ _ _ _ _ _ _ _ p q

/-- A layer entry depends on its inputs only through the row and the shared operands: blocks that agree with the
    whole arrays row by row give the whole arrays' entry. -/
theorem layerAt_block {n : ℕ} (A0 A1 : Mat n 128) (W2 W3 : Mat 128 128) (B : Mat 1 128) (D : Mat n 1)
    (x0 x1 : Mat 5000 128) (x2 x3 : Mat 128 128) (x4 : Mat 1 128) (x5 : Mat 5000 1) (row : Fin 5000 → Fin n)
    (h0 : ∀ p k, x0 (ix2 p k) = A0 (ix2 (row p) k)) (h1 : ∀ p k, x1 (ix2 p k) = A1 (ix2 (row p) k))
    (h2 : ∀ k q, x2 (ix2 k q) = W2 (ix2 k q)) (h3 : ∀ k q, x3 (ix2 k q) = W3 (ix2 k q))
    (h4 : ∀ q, x4 (ix2 (0 : Fin 1) q) = B (ix2 (0 : Fin 1) q))
    (h5 : ∀ p, x5 (ix2 p (0 : Fin 1)) = D (ix2 (row p) (0 : Fin 1))) (p : Fin 5000) (q : Fin 128) :
    layerAt x0 x1 x2 x3 (fun q => x4 (ix2 (0 : Fin 1) q)) (fun p => x5 (ix2 p (0 : Fin 1))) p q
      = layerAt A0 A1 W2 W3 (fun q => B (ix2 (0 : Fin 1) q)) (fun r => D (ix2 r (0 : Fin 1))) (row p) q := by
  unfold layerAt
  simp only [h0, h1, h2, h3, h4, h5]

/-- The printed index maps over the grid: the row-blocked windows move with the output's block, the shared ones stay at
    block (0, 0), and the output's block index is the point's number. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The row of the whole arrays that row `p` of point `t`'s blocks is. -/
def rowOf (t : Fin cfg1.N) (p : Fin 5000) : Fin 50000 :=
  ⟨t.val * 5000 + p.val, by have h : t.val < 10 := by have h1 : t.val < grid1.N := t.isLt; have h2 := N_1; omega
                            have := p.isLt; omega⟩

/-- What point `t` writes back is block `t` of the layer of the whole arrays as the region finds them. -/
theorem flushed_eq (c : Dev nD) (t : Fin cfg1.N) :
    (dat1 V c).flushed 6 t = ((cfg1.win 6).blk t).view.read (Elt Ideal)
      (layer (n := 50000) (V c main_v36) (V c main_v26) (V c main_v38) (V c main_v40)
        (fun q => V c main_v43 (ix2 (0 : Fin 1) q)) (fun r => V c main_v8 (ix2 r (0 : Fin 1)))) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz,
    View.ld_unit_zero (S := S1x128) hz, View.ld_unit_zero (S := S5000x1) hz]
  obtain ⟨e00, e01, e10, e11, e20, e21, e30, e31, e40, e41, e50, e51, e60, e61⟩ := idx_facts t
  funext j
  show k1_pay1 (F := Ideal) (iblk1 V c 0 t) (iblk1 V c 1 t) (iblk1 V c 2 t) (iblk1 V c 3 t) (iblk1 V c 4 t) (iblk1 V c 5 t) j
    = layerAt (n := 50000) (V c main_v36) (V c main_v26) (V c main_v38) (V c main_v40)
        (fun q => V c main_v43 (ix2 (0 : Fin 1) q)) (fun r => V c main_v8 (ix2 r (0 : Fin 1)))
        ((((cfg1.win 6).blk t).view.emb j) 0) ((((cfg1.win 6).blk t).view.emb j) 1)
  have hr : (((cfg1.win 6).blk t).view.emb j) 0 = rowOf t (j 0) := Fin.ext (by
    show win1_6.index t (0 : Fin 2) * 5000 + 1 * (j 0).val = t.val * 5000 + (j 0).val; omega)
  have hq : (((cfg1.win 6).blk t).view.emb j) 1 = j 1 := Fin.ext (by
    show win1_6.index t (1 : Fin 2) * 128 + 1 * (j 1).val = (j 1).val; omega)
  rw [hr, hq]
  refine (congrArg (k1_pay1 (F := Ideal) (iblk1 V c 0 t) (iblk1 V c 1 t) (iblk1 V c 2 t) (iblk1 V c 3 t) (iblk1 V c 4 t) (iblk1 V c 5 t)) (eq_ix2 j)).trans ?_
  refine (pay_apply _ _ _ _ _ _ (j 0) (j 1)).trans ?_
  refine layerAt_block (V c main_v36) (V c main_v26) (V c main_v38) (V c main_v40) (V c main_v43) (V c main_v8)
    _ _ _ _ _ _ (rowOf t) ?_ ?_ ?_ ?_ ?_ ?_ (j 0) (j 1)
  · intro p k
    show V c main_v36 (((cfg1.win 0).blk t).view.emb (ix2 p k)) = V c main_v36 (ix2 (rowOf t p) k)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · intro p k
    show V c main_v26 (((cfg1.win 1).blk t).view.emb (ix2 p k)) = V c main_v26 (ix2 (rowOf t p) k)
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * k.val = k.val; omega
  · intro k q
    show V c main_v38 (((cfg1.win 2).blk t).view.emb (ix2 k q)) = V c main_v38 (ix2 k q)
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega
  · intro k q
    show V c main_v40 (((cfg1.win 3).blk t).view.emb (ix2 k q)) = V c main_v40 (ix2 k q)
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  · intro q
    show V c main_v43 (((cfg1.win 4).blk t).view.emb (ix2 (0 : Fin 1) q)) = V c main_v43 (ix2 (0 : Fin 1) q)
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega
  · intro p
    show V c main_v8 (((cfg1.win 5).blk t).view.emb (ix2 p (0 : Fin 1))) = V c main_v8 (ix2 (rowOf t p) (0 : Fin 1))
    refine congrArg _ (funext fun a => Fin.ext ?_)
    match a with
    | ⟨0, _⟩ => show win1_5.index t (0 : Fin 2) * 5000 + 1 * p.val = t.val * 5000 + p.val; omega
    | ⟨1, _⟩ => show win1_5.index t (1 : Fin 2) * 1 + 1 * 0 = 0; omega

/-- An index of the output array is in point `t`'s block iff each coordinate is in the block's range on its axis. -/
theorem mem_blk (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v44).slice (win1_6.rect t)).set ↔ _
  rw [View.set_slice_whole, Rect.mem_set_unit]
  exact Iff.rfl

/-- Every row is written by the point its row number divided by 5000 names. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : grid1.N = 10 := N_1
  refine ⟨⟨(i 0).val / 5000, by show (i 0).val / 5000 < grid1.N; omega⟩, flush1_6 _, ?_⟩
  rw [mem_blk]
  obtain ⟨e00, e01, e10, e11, e20, e21, e30, e31, e40, e41, e50, e51, e60, e61⟩ :=
    idx_facts ⟨(i 0).val / 5000, by show (i 0).val / 5000 < grid1.N; omega⟩
  intro a
  match a with
  | ⟨0, _⟩ =>
    show win1_6.index _ (0 : Fin 2) * 5000 ≤ (i 0).val ∧ (i 0).val < win1_6.index _ (0 : Fin 2) * 5000 + 5000
    rw [e60]; show (i 0).val / 5000 * 5000 ≤ (i 0).val ∧ (i 0).val < (i 0).val / 5000 * 5000 + 5000; omega
  | ⟨1, _⟩ =>
    show win1_6.index _ (1 : Fin 2) * 128 ≤ (i 1).val ∧ (i 1).val < win1_6.index _ (1 : Fin 2) * 128 + 128
    rw [e61]; omega

/-- THE OUTPUT ARRAY after the region: the layer of the whole arrays the region found. -/
theorem out_eq (c : Dev nD) :
    (dat1 V c).arrAt 6 cfg1.N
      = layer (n := 50000) (V c main_v36) (V c main_v26) (V c main_v38) (V c main_v40)
          (fun q => V c main_v43 (ix2 (0 : Fin 1) q)) (fun r => V c main_v8 (ix2 r (0 : Fin 1))) :=
  (dat1 V c).arrAt_eq_of_cover 6 _ (fun t _ => flushed_eq V c t) (cover)

end Cert.KernelIdeal.Region1

end
-- ==== Proof.Region2.lean ====
/-
  Region 2: what the layer kernel leaves in its output array.

  The grid has ten points; point `t` reads rows 5000·t … 5000·t + 4999 of the aggregated messages, of the node features
  and of the degree column, reads both weight matrices and the bias row whole, and writes the same rows of the output.
  So row `r` of the output is written exactly once, by point r / 5000, and holds the layer's value at row `r` computed
  from row `r` of the inputs: the output array is the layer of the whole input arrays.
-/
import proofs.«133920_j73512660238652_1_alg».proof.Proof.Gen.KernelIdeal.Frame
import proofs.«133920_j73512660238652_1_alg».proof.Proof.LayerSpec
import Idealize.ShloMosaic.Lib.Pipeline.Value

set_option maxRecDepth 16384

noncomputable section

namespace Cert.KernelIdeal.Region2

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at `(p, q)` of a block. -/
theorem pay_apply (x0 x1 : Mat 5000 128) (x2 x3 : Mat 128 128) (x4 : Mat 1 128) (x5 : Mat 5000 1)
    (p : Fin 5000) (q : Fin 128) :
    k2_pay1 (F := Ideal) x0 x1 x2 x3 x4 x5 (ix2 p q)
      = layerAt x0 x1 x2 x3 (fun q => x4 (ix2 (0 : Fin 1) q)) (fun p => x5 (ix2 p (0 : Fin 1))) p q :=
  kernel_layer_cast_apply x0 x1 x2 x3 x4 x5 _ _ _ _ _ _ _ _ p q

/-- A layer entry depends on its inputs only through the row and the shared operands: blocks that agree with the
    whole arrays row by row give the whole arrays' entry. -/
theorem layerAt_block {n : ℕ} (A0 A1 : Mat n 128) (W2 W3 : Mat 128 128) (B : Mat 1 128) (D : Mat n 1)
    (x0 x1 : Mat 5000 128) (x2 x3 : Mat 128 128) (x4 : Mat 1 128) (x5 : Mat 5000 1) (row : Fin 5000 → Fin n)
    (h0 : ∀ p k, x0 (ix2 p k) = A0 (ix2 (row p) k)) (h1 : ∀ p k, x1 (ix2 p k) = A1 (ix2 (row p) k))
    (h2 : ∀ k q, x2 (ix2 k q) = W2 (ix2 k q)) (h3 : ∀ k q, x3 (ix2 k q) = W3 (ix2 k q))
    (h4 : ∀ q, x4 (ix2 (0 : Fin 1) q) = B (ix2 (0 : Fin 1) q))
    (h5 : ∀ p, x5 (ix2 p (0 : Fin 1)) = D (ix2 (row p) (0 : Fin 1))) (p : Fin 5000) (q : Fin 128) :
    layerAt x0 x1 x2 x3 (fun q => x4 (ix2 (0 : Fin 1) q)) (fun p => x5 (ix2 p (0 : Fin 1))) p q
      = layerAt A0 A1 W2 W3 (fun q => B (ix2 (0 : Fin 1) q)) (fun r => D (ix2 r (0 : Fin 1))) (row p) q := by
  unfold layerAt
  simp only [h0, h1, h2, h3, h4, h5]

/-- The printed index maps over the grid: the row-blocked windows move with the output's block, the shared ones stay at
    block (0, 0), and the output's block index is the point's number. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- The row of the whole arrays that row `p` of point `t`'s blocks is. -/
def rowOf (t : Fin cfg2.N) (p : Fin 5000) : Fin 50000 :=
  ⟨t.val * 5000 + p.val, by have h : t.val < 10 := by have h1 : t.val < grid2.N := t.isLt; have h2 := N_2; omega
                            have := p.isLt; omega⟩

/-- What point `t` writes back is block `t` of the layer of the whole arrays as the region finds them. -/
theorem flushed_eq (c : Dev nD) (t : Fin cfg2.N) :
    (dat2 V c).flushed 6 t = ((cfg2.win 6).blk t).view.read (Elt Ideal)
      (layer (n := 50000) (V c main_v54) (V c main_v44) (V c main_v56) (V c main_v58)
        (fun q => V c main_v61 (ix2 (0 : Fin 1) q)) (fun r => V c main_v8 (ix2 r (0 : Fin 1)))) := by
  show (cfg2.win 6).cut (grid2.coords t) ((dat2 V c).after 6 t) = _
  rw [after2_6]
  unfold out2_6
  rw [View.canon_unit_zero hz]
  simp only [View.ld_unit_zero (S := S5000x128) hz, View.ld_unit_zero (S := S128x128) hz,
    View.ld_unit_zero (S := S1x128) hz, View.ld_unit_zero (S := S5000x1) hz]
  obtain ⟨e00, e01, e10, e11, e20, e21, e30, e31, e40, e41, e50, e51, e60, e61⟩ := idx_facts t
  funext j
  show k2_pay1 (F := Ideal) (iblk2 V c 0 t) (iblk2 V c 1 t) (iblk2 V c 2 t) (iblk2 V c 3 t) (iblk2 V c 4 t) (iblk2 V c 5 t) j
    = layerAt (n := 50000) (V c main_v54) (V c main_v44) (V c main_v56) (V c main_v58)
        (fun q => V c main_v61 (ix2 (0 : Fin 1) q)) (fun r => V c main_v8 (ix2 r (0 : Fin 1)))
        ((((cfg2.win 6).blk t).view.emb j) 0) ((((cfg2.win 6).blk t).view.emb j) 1)
  have hr : (((cfg2.win 6).blk t).view.emb j) 0 = rowOf t (j 0) := Fin.ext (by
    show win2_6.index t (0 : Fin 2) * 5000 + 1 * (j 0).val = t.val * 5000 + (j 0).val; omega)
  have hq : (((cfg2.win 6).blk t).view.emb j) 1 = j 1 := Fin.ext (by
    show win2_6.index t (1 : Fin 2) * 128 + 1 * (j 1).val = (j 1).val; omega)
  rw [hr, hq]
  refine (congrArg (k2_pay1 (F := Ideal) (iblk2 V c 0 t) (iblk2 V c 1 t) (iblk2 V c 2 t) (iblk2 V c 3 t) (iblk2 V c 4 t) (iblk2 V c 5 t)) (eq_ix2 j)).trans ?_
  refine (pay_apply _ _ _ _ _ _ (j 0) (j 1)).trans ?_
  refine layerAt_block (V c main_v54) (V c main_v44) (V c main_v56) (V c main_v58) (V c main_v61) (V c main_v8)
    _ _ _ _ _ _ (rowOf t) ?_ ?_ ?_ ?_ ?_ ?_ (j 0) (j 1)
  · intro p k
    show V c main_v54 (((cfg2.win 0).blk t).view.emb (ix2 p k)) = V c main_v54 (ix2 (rowOf t p) k)
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  · intro p k
    show V c main_v44 (((cfg2.win 1).blk t).view.emb (ix2 p k)) = V c main_v44 (ix2 (rowOf t p) k)
    refine congrArg _ (funext fun a => Fin.ext ?_)
    match a with
    | ⟨0, _⟩ => show win2_1.index t (0 : Fin 2) * 5000 + 1 * p.val = t.val * 5000 + p.val; omega
    | ⟨1, _⟩ => show win2_1.index t (1 : Fin 2) * 128 + 1 * k.val = k.val; omega
  · intro k q
    show V c main_v56 (((cfg2.win 2).blk t).view.emb (ix2 k q)) = V c main_v56 (ix2 k q)
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * q.val = q.val; omega
  · intro k q
    show V c main_v58 (((cfg2.win 3).blk t).view.emb (ix2 k q)) = V c main_v58 (ix2 k q)
    refine congrArg _ (funext fun a => Fin.ext ?_)
    match a with
    | ⟨0, _⟩ => show win2_3.index t (0 : Fin 2) * 128 + 1 * k.val = k.val; omega
    | ⟨1, _⟩ => show win2_3.index t (1 : Fin 2) * 128 + 1 * q.val = q.val; omega
  · intro q
    show V c main_v61 (((cfg2.win 4).blk t).view.emb (ix2 (0 : Fin 1) q)) = V c main_v61 (ix2 (0 : Fin 1) q)
    refine congrArg _ (funext fun a => Fin.ext ?_)
    match a with
    | ⟨0, _⟩ => show win2_4.index t (0 : Fin 2) * 1 + 1 * 0 = 0; omega
    | ⟨1, _⟩ => show win2_4.index t (1 : Fin 2) * 128 + 1 * q.val = q.val; omega
  · intro p
    show V c main_v8 (((cfg2.win 5).blk t).view.emb (ix2 p (0 : Fin 1))) = V c main_v8 (ix2 (rowOf t p) (0 : Fin 1))
    refine congrArg _ (funext fun a => Fin.ext ?_)
    match a with
    | ⟨0, _⟩ => show win2_5.index t (0 : Fin 2) * 5000 + 1 * p.val = t.val * 5000 + p.val; omega
    | ⟨1, _⟩ => show win2_5.index t (1 : Fin 2) * 1 + 1 * 0 = 0; omega

/-- An index of the output array is in point `t`'s block iff each coordinate is in the block's range on its axis. -/
theorem mem_blk (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v62).slice (win2_6.rect t)).set ↔ _
  rw [View.set_slice_whole, Rect.mem_set_unit]
  exact Iff.rfl

/-- Every row is written by the point its row number divided by 5000 names. -/
theorem cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : grid2.N = 10 := N_2
  refine ⟨⟨(i 0).val / 5000, by show (i 0).val / 5000 < grid2.N; omega⟩, flush2_6 _, ?_⟩
  rw [mem_blk]
  obtain ⟨e00, e01, e10, e11, e20, e21, e30, e31, e40, e41, e50, e51, e60, e61⟩ :=
    idx_facts ⟨(i 0).val / 5000, by show (i 0).val / 5000 < grid2.N; omega⟩
  intro a
  match a with
  | ⟨0, _⟩ =>
    show win2_6.index _ (0 : Fin 2) * 5000 ≤ (i 0).val ∧ (i 0).val < win2_6.index _ (0 : Fin 2) * 5000 + 5000
    rw [e60]; show (i 0).val / 5000 * 5000 ≤ (i 0).val ∧ (i 0).val < (i 0).val / 5000 * 5000 + 5000; omega
  | ⟨1, _⟩ =>
    show win2_6.index _ (1 : Fin 2) * 128 ≤ (i 1).val ∧ (i 1).val < win2_6.index _ (1 : Fin 2) * 128 + 128
    rw [e61]; omega

/-- THE OUTPUT ARRAY after the region: the layer of the whole arrays the region found. -/
theorem out_eq (c : Dev nD) :
    (dat2 V c).arrAt 6 cfg2.N
      = layer (n := 50000) (V c main_v54) (V c main_v44) (V c main_v56) (V c main_v58)
          (fun q => V c main_v61 (ix2 (0 : Fin 1) q)) (fun r => V c main_v8 (ix2 r (0 : Fin 1))) :=
  (dat2 V c).arrAt_eq_of_cover 6 _ (fun t _ => flushed_eq V c t) (cover)

end Cert.KernelIdeal.Region2

end
-- ==== Proof.Region3.lean ====
/-
  Region 3: what the final linear kernel leaves in its output array.

  Point `t` of the ten reads rows 5000·t … 5000·t + 4999 of the last layer's features, the weight matrix and the bias
  row whole, and writes the same rows of the output: row `r` is written once, by point r / 5000, from row `r` of the
  features.  So the output array is the final linear map of the whole arrays.
-/
import proofs.«133920_j73512660238652_1_alg».proof.Proof.Gen.KernelIdeal.Frame
import proofs.«133920_j73512660238652_1_alg».proof.Proof.LayerSpec
import Idealize.ShloMosaic.Lib.Pipeline.Value

set_option maxRecDepth 16384

noncomputable section

namespace Cert.KernelIdeal.Region3

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at `(p, q)` of a block. -/
theorem pay_apply (x0 : Mat 5000 128) (x1 : Mat 128 128) (x2 : Mat 1 128) (p : Fin 5000) (q : Fin 128) :
    k3_pay1 (F := Ideal) x0 x1 x2 (ix2 p q) = finalAt x0 x1 (fun q => x2 (ix2 (0 : Fin 1) q)) p q :=
  kernel_final_apply x0 x1 x2 _ _ _ _ _ p q

/-- An entry of the final map depends on the features only through the row. -/
theorem finalAt_block {n : ℕ} (A0 : Mat n 128) (W1 : Mat 128 128) (B : Mat 1 128)
    (x0 : Mat 5000 128) (x1 : Mat 128 128) (x2 : Mat 1 128) (row : Fin 5000 → Fin n)
    (h0 : ∀ p k, x0 (ix2 p k) = A0 (ix2 (row p) k)) (h1 : ∀ k q, x1 (ix2 k q) = W1 (ix2 k q))
    (h2 : ∀ q, x2 (ix2 (0 : Fin 1) q) = B (ix2 (0 : Fin 1) q)) (p : Fin 5000) (q : Fin 128) :
    finalAt x0 x1 (fun q => x2 (ix2 (0 : Fin 1) q)) p q = finalAt A0 W1 (fun q => B (ix2 (0 : Fin 1) q)) (row p) q := by
  unfold finalAt
  simp only [h0, h1, h2]

/-- The printed index maps over the grid. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The row of the whole arrays that row `p` of point `t`'s blocks is. -/
def rowOf (t : Fin cfg3.N) (p : Fin 5000) : Fin 50000 :=
  ⟨t.val * 5000 + p.val, by have h : t.val < 10 := by have h1 : t.val < grid3.N := t.isLt; have h2 := N_3; omega
                            have := p.isLt; omega⟩

/-- What point `t` writes back is block `t` of the final map of the whole arrays as the region finds them. -/
theorem flushed_eq (c : Dev nD) (t : Fin cfg3.N) :
    (dat3 V c).flushed 3 t = ((cfg3.win 3).blk t).view.read (Elt Ideal)
      (final (n := 50000) (V c main_v62) (V c main_arg5) (fun q => V c main_v63 (ix2 (0 : Fin 1) q))) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x128) hz,
    View.ld_unit_zero (S := S1x128) hz]
  obtain ⟨e00, e01, e10, e11, e20, e21, e30, e31⟩ := idx_facts t
  funext j
  show k3_pay1 (F := Ideal) (iblk3 V c 0 t) (iblk3 V c 1 t) (iblk3 V c 2 t) j
    = finalAt (n := 50000) (V c main_v62) (V c main_arg5) (fun q => V c main_v63 (ix2 (0 : Fin 1) q))
        ((((cfg3.win 3).blk t).view.emb j) 0) ((((cfg3.win 3).blk t).view.emb j) 1)
  have hr : (((cfg3.win 3).blk t).view.emb j) 0 = rowOf t (j 0) := Fin.ext (by
    show win3_3.index t (0 : Fin 2) * 5000 + 1 * (j 0).val = t.val * 5000 + (j 0).val; omega)
  have hq : (((cfg3.win 3).blk t).view.emb j) 1 = j 1 := Fin.ext (by
    show win3_3.index t (1 : Fin 2) * 128 + 1 * (j 1).val = (j 1).val; omega)
  rw [hr, hq]
  refine (congrArg (k3_pay1 (F := Ideal) (iblk3 V c 0 t) (iblk3 V c 1 t) (iblk3 V c 2 t)) (eq_ix2 j)).trans ?_
  refine (pay_apply _ _ _ (j 0) (j 1)).trans ?_
  refine finalAt_block (V c main_v62) (V c main_arg5) (V c main_v63) _ _ _ (rowOf t) ?_ ?_ ?_ (j 0) (j 1)
  · intro p k
    show V c main_v62 (((cfg3.win 0).blk t).view.emb (ix2 p k)) = V c main_v62 (ix2 (rowOf t p) k)
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * k.val = k.val; omega
  · intro k q
    show V c main_arg5 (((cfg3.win 1).blk t).view.emb (ix2 k q)) = V c main_arg5 (ix2 k q)
    refine congrArg _ (funext fun a => Fin.ext ?_)
    match a with
    | ⟨0, _⟩ => show win3_1.index t (0 : Fin 2) * 128 + 1 * k.val = k.val; omega
    | ⟨1, _⟩ => show win3_1.index t (1 : Fin 2) * 128 + 1 * q.val = q.val; omega
  · intro q
    show V c main_v63 (((cfg3.win 2).blk t).view.emb (ix2 (0 : Fin 1) q)) = V c main_v63 (ix2 (0 : Fin 1) q)
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * q.val = q.val; omega

/-- An index of the output array is in point `t`'s block iff each coordinate is in the block's range on its axis. -/
theorem mem_blk (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v64).slice (win3_3.rect t)).set ↔ _
  rw [View.set_slice_whole, Rect.mem_set_unit]
  exact Iff.rfl

/-- Every row is written by the point its row number divided by 5000 names. -/
theorem cover (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : grid3.N = 10 := N_3
  refine ⟨⟨(i 0).val / 5000, by show (i 0).val / 5000 < grid3.N; omega⟩, flush3_3 _, ?_⟩
  rw [mem_blk]
  obtain ⟨e00, e01, e10, e11, e20, e21, e30, e31⟩ :=
    idx_facts ⟨(i 0).val / 5000, by show (i 0).val / 5000 < grid3.N; omega⟩
  intro a
  match a with
  | ⟨0, _⟩ =>
    show win3_3.index _ (0 : Fin 2) * 5000 ≤ (i 0).val ∧ (i 0).val < win3_3.index _ (0 : Fin 2) * 5000 + 5000
    rw [e30]; show (i 0).val / 5000 * 5000 ≤ (i 0).val ∧ (i 0).val < (i 0).val / 5000 * 5000 + 5000; omega
  | ⟨1, _⟩ =>
    show win3_3.index _ (1 : Fin 2) * 128 ≤ (i 1).val ∧ (i 1).val < win3_3.index _ (1 : Fin 2) * 128 + 128
    rw [e31]; omega

/-- THE OUTPUT ARRAY after the region: the final map of the whole arrays the region found. -/
theorem out_eq (c : Dev nD) :
    (dat3 V c).arrAt 3 cfg3.N
      = final (n := 50000) (V c main_v62) (V c main_arg5) (fun q => V c main_v63 (ix2 (0 : Fin 1) q)) :=
  (dat3 V c).arrAt_eq_of_cover 3 _ (fun t _ => flushed_eq V c t) (cover)

end Cert.KernelIdeal.Region3

end
-- ==== Proof.KerValue.lean ====
/-
  The idealized kernel's result is the network.

  The buffer contents at each boundary of @main, read at the buffers the next stretch or region uses.  A host stretch
  leaves the edge endpoints, the degree column and the argument arrays as they were and computes, from the previous
  region's output, the aggregated messages and this layer's weight slices; a region leaves every buffer but its output
  as it was and leaves in its output the layer of its operands (the final map, for the last region).  Folding these
  facts from the launch memory to the last boundary, the result buffer holds `net` of the argument arrays.
-/
import proofs.«133920_j73512660238652_1_alg».proof.Proof.Gen.KernelIdeal.Frame
import proofs.«133920_j73512660238652_1_alg».proof.Proof.GlueK
import proofs.«133920_j73512660238652_1_alg».proof.Proof.Region0
import proofs.«133920_j73512660238652_1_alg».proof.Proof.Region1
import proofs.«133920_j73512660238652_1_alg».proof.Proof.Region2
import proofs.«133920_j73512660238652_1_alg».proof.Proof.Region3
import Idealize.ShloMosaic.Lib.StableHlo.Run

set_option maxRecDepth 16384

noncomputable section

namespace Cert.KernelIdeal.KerValue

open Cert.KernelIdeal Cert.KernelIdeal.Gen Cert.KernelIdeal.Glue Cert.GraphConv
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## After the first host stretch: the graph structure, the first aggregation, layer 0's slices -/

theorem W1_v1 : W1 m ρ c (Proc.devRef .tc main_v1) = src (m ((c : Thread nD τ).loc main_arg1)) := by
  show StableHlo.after hostOps0 (W0 m ρ c) (Proc.devRef .tc main_v1) = _
  dsimp only [hostOps0]
  after_results
  all_goals rfl
theorem W1_v3 : W1 m ρ c (Proc.devRef .tc main_v3) = dst (m ((c : Thread nD τ).loc main_arg1)) := by
  show StableHlo.after hostOps0 (W0 m ρ c) (Proc.devRef .tc main_v3) = _
  dsimp only [hostOps0]
  after_results
  all_goals rfl
theorem W1_arg2 : W1 m ρ c (Proc.devRef .tc main_arg2) = (m ((c : Thread nD τ).loc main_arg2)) := by
  show StableHlo.after hostOps0 (W0 m ρ c) (Proc.devRef .tc main_arg2) = _
  dsimp only [hostOps0]
  after_results
  all_goals rfl
theorem W1_arg3 : W1 m ρ c (Proc.devRef .tc main_arg3) = (m ((c : Thread nD τ).loc main_arg3)) := by
  show StableHlo.after hostOps0 (W0 m ρ c) (Proc.devRef .tc main_arg3) = _
  dsimp only [hostOps0]
  after_results
  all_goals rfl
theorem W1_arg4 : W1 m ρ c (Proc.devRef .tc main_arg4) = (m ((c : Thread nD τ).loc main_arg4)) := by
  show StableHlo.after hostOps0 (W0 m ρ c) (Proc.devRef .tc main_arg4) = _
  dsimp only [hostOps0]
  after_results
  all_goals rfl
theorem W1_arg5 : W1 m ρ c (Proc.devRef .tc main_arg5) = (m ((c : Thread nD τ).loc main_arg5)) := by
  show StableHlo.after hostOps0 (W0 m ρ c) (Proc.devRef .tc main_arg5) = _
  dsimp only [hostOps0]
  after_results
  all_goals rfl
theorem W1_arg6 : W1 m ρ c (Proc.devRef .tc main_arg6) = (m ((c : Thread nD τ).loc main_arg6)) := by
  show StableHlo.after hostOps0 (W0 m ρ c) (Proc.devRef .tc main_arg6) = _
  dsimp only [hostOps0]
  after_results
  all_goals rfl
theorem W1_arg0 : W1 m ρ c (Proc.devRef .tc main_arg0) = (m ((c : Thread nD τ).loc main_arg0)) := by
  show StableHlo.after hostOps0 (W0 m ρ c) (Proc.devRef .tc main_arg0) = _
  dsimp only [hostOps0]
  after_results
  all_goals rfl
theorem W1_v8 : W1 m ρ c (Proc.devRef .tc main_v8) = (shapeCast S50000x1 (deg (m ((c : Thread nD τ).loc main_arg1))) shapeCasts_S50000_S50000x1) := by
  show StableHlo.after hostOps0 (W0 m ρ c) (Proc.devRef .tc main_v8) = _
  dsimp only [hostOps0]
  after_results
  all_goals rfl
set_option maxHeartbeats 4000000 in
theorem W1_v18 : W1 m ρ c (Proc.devRef .tc main_v18) = agg (m ((c : Thread nD τ).loc main_arg0)) (m ((c : Thread nD τ).loc main_arg1)) := by
  show StableHlo.after hostOps0 (W0 m ρ c) (Proc.devRef .tc main_v18) = _
  dsimp only [hostOps0]
  after_results_simp
  all_goals rfl
theorem W1_v20 : W1 m ρ c (Proc.devRef .tc main_v20) = wsl0 (m ((c : Thread nD τ).loc main_arg2)) := by
  show StableHlo.after hostOps0 (W0 m ρ c) (Proc.devRef .tc main_v20) = _
  dsimp only [hostOps0]
  after_results
  all_goals rfl
theorem W1_v22 : W1 m ρ c (Proc.devRef .tc main_v22) = wsl0 (m ((c : Thread nD τ).loc main_arg4)) := by
  show StableHlo.after hostOps0 (W0 m ρ c) (Proc.devRef .tc main_v22) = _
  dsimp only [hostOps0]
  after_results
  all_goals rfl
theorem W1_v25 : W1 m ρ c (Proc.devRef .tc main_v25) = shapeCast S1x128 (bsl0 (m ((c : Thread nD τ).loc main_arg3))) shapeCasts_S128_S1x128 := by
  show StableHlo.after hostOps0 (W0 m ρ c) (Proc.devRef .tc main_v25) = _
  dsimp only [hostOps0]
  after_results
  all_goals rfl

/-! ## Region 0: layer 0 -/

/-- The bias row the region reads, entry by entry, is layer 0's bias vector. -/
theorem brow0 : (fun q : Fin 128 => V1 m ρ c main_v25 (ix2 (0 : Fin 1) q)) = fun q => bsl0 (m ((c : Thread nD τ).loc main_arg3)) (ix1 q) :=
  funext fun q => (congrFun (W1_v25 m ρ c) (ix2 (0 : Fin 1) q)).trans (shapeCast_row_apply _ _ q)

/-- The degree column the region reads, entry by entry, is the degree vector. -/
theorem wcol0 : (fun r : Fin 50000 => V1 m ρ c main_v8 (ix2 r (0 : Fin 1))) = fun r => deg (m ((c : Thread nD τ).loc main_arg1)) (ix1 r) :=
  funext fun r => (congrFun (W1_v8 m ρ c) (ix2 r (0 : Fin 1))).trans (Cert.SupCon.Ker.shapeCast_a_a1_apply _ _ r 0)

/-- The region's output array: one more layer. -/
theorem W2_v26 : W2 m ρ c (Proc.devRef .tc main_v26) = (step (wsl0 (m ((c : Thread nD τ).loc main_arg2))) (wsl0 (m ((c : Thread nD τ).loc main_arg4))) (bsl0 (m ((c : Thread nD τ).loc main_arg3))) (m ((c : Thread nD τ).loc main_arg1)) (m ((c : Thread nD τ).loc main_arg0))) := by
  refine (W2_arr m ρ c 6).trans ((Region0.out_eq (V1 m ρ) c).trans ?_)
  rw [brow0 m ρ c, wcol0 m ρ c]
  show layer (n := 50000) (W1 m ρ c (Proc.devRef .tc main_v18)) (W1 m ρ c (Proc.devRef .tc main_arg0))
      (W1 m ρ c (Proc.devRef .tc main_v20)) (W1 m ρ c (Proc.devRef .tc main_v22)) _ _ = _
  rw [W1_v18 m ρ c, W1_arg0 m ρ c, W1_v20 m ρ c, W1_v22 m ρ c]
  rfl

theorem W2_v1 : W2 m ρ c (Proc.devRef .tc main_v1) = src (m ((c : Thread nD τ).loc main_arg1)) :=
  (W2_of_ne m ρ c main_v1 (by decide)).trans (W1_v1 m ρ c)
theorem W2_v3 : W2 m ρ c (Proc.devRef .tc main_v3) = dst (m ((c : Thread nD τ).loc main_arg1)) :=
  (W2_of_ne m ρ c main_v3 (by decide)).trans (W1_v3 m ρ c)
theorem W2_arg2 : W2 m ρ c (Proc.devRef .tc main_arg2) = (m ((c : Thread nD τ).loc main_arg2)) :=
  (W2_of_ne m ρ c main_arg2 (by decide)).trans (W1_arg2 m ρ c)
theorem W2_arg3 : W2 m ρ c (Proc.devRef .tc main_arg3) = (m ((c : Thread nD τ).loc main_arg3)) :=
  (W2_of_ne m ρ c main_arg3 (by decide)).trans (W1_arg3 m ρ c)
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_v8 : W2 m ρ c (Proc.devRef .tc main_v8) = (shapeCast S50000x1 (deg (m ((c : Thread nD τ).loc main_arg1))) shapeCasts_S50000_S50000x1) :=
  (W2_arr m ρ c 5).trans (((dat0 (V1 m ρ) c).arrAt_in 5 rfl _).trans ((A_eq0 (V1 m ρ) c 5).trans (W1_v8 m ρ c)))

/-! ## After host stretch 1: the next aggregation and layer 1's slices -/

theorem W3_v1 : W3 m ρ c (Proc.devRef .tc main_v1) = src (m ((c : Thread nD τ).loc main_arg1)) := by
  show StableHlo.after hostOps1 (W2 m ρ c) (Proc.devRef .tc main_v1) = _
  dsimp only [hostOps1]
  after_results
  exact W2_v1 m ρ c
theorem W3_v3 : W3 m ρ c (Proc.devRef .tc main_v3) = dst (m ((c : Thread nD τ).loc main_arg1)) := by
  show StableHlo.after hostOps1 (W2 m ρ c) (Proc.devRef .tc main_v3) = _
  dsimp only [hostOps1]
  after_results
  exact W2_v3 m ρ c
theorem W3_arg2 : W3 m ρ c (Proc.devRef .tc main_arg2) = (m ((c : Thread nD τ).loc main_arg2)) := by
  show StableHlo.after hostOps1 (W2 m ρ c) (Proc.devRef .tc main_arg2) = _
  dsimp only [hostOps1]
  after_results
  exact W2_arg2 m ρ c
theorem W3_arg3 : W3 m ρ c (Proc.devRef .tc main_arg3) = (m ((c : Thread nD τ).loc main_arg3)) := by
  show StableHlo.after hostOps1 (W2 m ρ c) (Proc.devRef .tc main_arg3) = _
  dsimp only [hostOps1]
  after_results
  exact W2_arg3 m ρ c
theorem W3_arg4 : W3 m ρ c (Proc.devRef .tc main_arg4) = (m ((c : Thread nD τ).loc main_arg4)) := by
  show StableHlo.after hostOps1 (W2 m ρ c) (Proc.devRef .tc main_arg4) = _
  dsimp only [hostOps1]
  after_results
  exact W2_arg4 m ρ c
theorem W3_arg5 : W3 m ρ c (Proc.devRef .tc main_arg5) = (m ((c : Thread nD τ).loc main_arg5)) := by
  show StableHlo.after hostOps1 (W2 m ρ c) (Proc.devRef .tc main_arg5) = _
  dsimp only [hostOps1]
  after_results
  exact W2_arg5 m ρ c
theorem W3_arg6 : W3 m ρ c (Proc.devRef .tc main_arg6) = (m ((c : Thread nD τ).loc main_arg6)) := by
  show StableHlo.after hostOps1 (W2 m ρ c) (Proc.devRef .tc main_arg6) = _
  dsimp only [hostOps1]
  after_results
  exact W2_arg6 m ρ c
theorem W3_v8 : W3 m ρ c (Proc.devRef .tc main_v8) = (shapeCast S50000x1 (deg (m ((c : Thread nD τ).loc main_arg1))) shapeCasts_S50000_S50000x1) := by
  show StableHlo.after hostOps1 (W2 m ρ c) (Proc.devRef .tc main_v8) = _
  dsimp only [hostOps1]
  after_results
  exact W2_v8 m ρ c
theorem W3_v26 : W3 m ρ c (Proc.devRef .tc main_v26) = (step (wsl0 (m ((c : Thread nD τ).loc main_arg2))) (wsl0 (m ((c : Thread nD τ).loc main_arg4))) (bsl0 (m ((c : Thread nD τ).loc main_arg3))) (m ((c : Thread nD τ).loc main_arg1)) (m ((c : Thread nD τ).loc main_arg0))) := by
  show StableHlo.after hostOps1 (W2 m ρ c) (Proc.devRef .tc main_v26) = _
  dsimp only [hostOps1]
  after_results
  exact W2_v26 m ρ c
set_option maxHeartbeats 4000000 in
theorem W3_v36 : W3 m ρ c (Proc.devRef .tc main_v36) = agg (step (wsl0 (m ((c : Thread nD τ).loc main_arg2))) (wsl0 (m ((c : Thread nD τ).loc main_arg4))) (bsl0 (m ((c : Thread nD τ).loc main_arg3))) (m ((c : Thread nD τ).loc main_arg1)) (m ((c : Thread nD τ).loc main_arg0))) (m ((c : Thread nD τ).loc main_arg1)) := by
  show StableHlo.after hostOps1 (W2 m ρ c) (Proc.devRef .tc main_v36) = _
  dsimp only [hostOps1]
  after_results_simp
  simp only [W2_v1 m ρ c, W2_v3 m ρ c, W2_v26 m ρ c]
  rfl
theorem W3_v38 : W3 m ρ c (Proc.devRef .tc main_v38) = wsl1 (m ((c : Thread nD τ).loc main_arg2)) := by
  show StableHlo.after hostOps1 (W2 m ρ c) (Proc.devRef .tc main_v38) = _
  dsimp only [hostOps1]
  after_results
  simp only [W2_arg2 m ρ c]
  rfl
theorem W3_v40 : W3 m ρ c (Proc.devRef .tc main_v40) = wsl1 (m ((c : Thread nD τ).loc main_arg4)) := by
  show StableHlo.after hostOps1 (W2 m ρ c) (Proc.devRef .tc main_v40) = _
  dsimp only [hostOps1]
  after_results
  simp only [W2_arg4 m ρ c]
  rfl
theorem W3_v43 : W3 m ρ c (Proc.devRef .tc main_v43) = shapeCast S1x128 (bsl1 (m ((c : Thread nD τ).loc main_arg3))) shapeCasts_S128_S1x128 := by
  show StableHlo.after hostOps1 (W2 m ρ c) (Proc.devRef .tc main_v43) = _
  dsimp only [hostOps1]
  after_results
  simp only [W2_arg3 m ρ c]
  rfl

/-! ## Region 1: layer 1 -/

/-- The bias row the region reads, entry by entry, is layer 1's bias vector. -/
theorem brow1 : (fun q : Fin 128 => V3 m ρ c main_v43 (ix2 (0 : Fin 1) q)) = fun q => bsl1 (m ((c : Thread nD τ).loc main_arg3)) (ix1 q) :=
  funext fun q => (congrFun (W3_v43 m ρ c) (ix2 (0 : Fin 1) q)).trans (shapeCast_row_apply _ _ q)

/-- The degree column the region reads, entry by entry, is the degree vector. -/
theorem wcol1 : (fun r : Fin 50000 => V3 m ρ c main_v8 (ix2 r (0 : Fin 1))) = fun r => deg (m ((c : Thread nD τ).loc main_arg1)) (ix1 r) :=
  funext fun r => (congrFun (W3_v8 m ρ c) (ix2 r (0 : Fin 1))).trans (Cert.SupCon.Ker.shapeCast_a_a1_apply _ _ r 0)

/-- The region's output array: one more layer. -/
theorem W4_v44 : W4 m ρ c (Proc.devRef .tc main_v44) = (step (wsl1 (m ((c : Thread nD τ).loc main_arg2))) (wsl1 (m ((c : Thread nD τ).loc main_arg4))) (bsl1 (m ((c : Thread nD τ).loc main_arg3))) (m ((c : Thread nD τ).loc main_arg1)) (step (wsl0 (m ((c : Thread nD τ).loc main_arg2))) (wsl0 (m ((c : Thread nD τ).loc main_arg4))) (bsl0 (m ((c : Thread nD τ).loc main_arg3))) (m ((c : Thread nD τ).loc main_arg1)) (m ((c : Thread nD τ).loc main_arg0)))) := by
  refine (W4_arr m ρ c 6).trans ((Region1.out_eq (V3 m ρ) c).trans ?_)
  rw [brow1 m ρ c, wcol1 m ρ c]
  show layer (n := 50000) (W3 m ρ c (Proc.devRef .tc main_v36)) (W3 m ρ c (Proc.devRef .tc main_v26))
      (W3 m ρ c (Proc.devRef .tc main_v38)) (W3 m ρ c (Proc.devRef .tc main_v40)) _ _ = _
  rw [W3_v36 m ρ c, W3_v26 m ρ c, W3_v38 m ρ c, W3_v40 m ρ c]
  rfl

theorem W4_v1 : W4 m ρ c (Proc.devRef .tc main_v1) = src (m ((c : Thread nD τ).loc main_arg1)) :=
  (W4_of_ne m ρ c main_v1 (by decide)).trans (W3_v1 m ρ c)
theorem W4_v3 : W4 m ρ c (Proc.devRef .tc main_v3) = dst (m ((c : Thread nD τ).loc main_arg1)) :=
  (W4_of_ne m ρ c main_v3 (by decide)).trans (W3_v3 m ρ c)
theorem W4_arg2 : W4 m ρ c (Proc.devRef .tc main_arg2) = (m ((c : Thread nD τ).loc main_arg2)) :=
  (W4_of_ne m ρ c main_arg2 (by decide)).trans (W3_arg2 m ρ c)
theorem W4_arg3 : W4 m ρ c (Proc.devRef .tc main_arg3) = (m ((c : Thread nD τ).loc main_arg3)) :=
  (W4_of_ne m ρ c main_arg3 (by decide)).trans (W3_arg3 m ρ c)
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)
theorem W4_arg6 : W4 m ρ c (Proc.devRef .tc main_arg6) = (m ((c : Thread nD τ).loc main_arg6)) :=
  (W4_of_ne m ρ c main_arg6 (by decide)).trans (W3_arg6 m ρ c)
theorem W4_v8 : W4 m ρ c (Proc.devRef .tc main_v8) = (shapeCast S50000x1 (deg (m ((c : Thread nD τ).loc main_arg1))) shapeCasts_S50000_S50000x1) :=
  (W4_arr m ρ c 5).trans (((dat1 (V3 m ρ) c).arrAt_in 5 rfl _).trans ((A_eq1 (V3 m ρ) c 5).trans (W3_v8 m ρ c)))

/-! ## After host stretch 2: the next aggregation and layer 2's slices -/

theorem W5_v1 : W5 m ρ c (Proc.devRef .tc main_v1) = src (m ((c : Thread nD τ).loc main_arg1)) := by
  show StableHlo.after hostOps2 (W4 m ρ c) (Proc.devRef .tc main_v1) = _
  dsimp only [hostOps2]
  after_results
  exact W4_v1 m ρ c
theorem W5_v3 : W5 m ρ c (Proc.devRef .tc main_v3) = dst (m ((c : Thread nD τ).loc main_arg1)) := by
  show StableHlo.after hostOps2 (W4 m ρ c) (Proc.devRef .tc main_v3) = _
  dsimp only [hostOps2]
  after_results
  exact W4_v3 m ρ c
theorem W5_arg2 : W5 m ρ c (Proc.devRef .tc main_arg2) = (m ((c : Thread nD τ).loc main_arg2)) := by
  show StableHlo.after hostOps2 (W4 m ρ c) (Proc.devRef .tc main_arg2) = _
  dsimp only [hostOps2]
  after_results
  exact W4_arg2 m ρ c
theorem W5_arg3 : W5 m ρ c (Proc.devRef .tc main_arg3) = (m ((c : Thread nD τ).loc main_arg3)) := by
  show StableHlo.after hostOps2 (W4 m ρ c) (Proc.devRef .tc main_arg3) = _
  dsimp only [hostOps2]
  after_results
  exact W4_arg3 m ρ c
theorem W5_arg4 : W5 m ρ c (Proc.devRef .tc main_arg4) = (m ((c : Thread nD τ).loc main_arg4)) := by
  show StableHlo.after hostOps2 (W4 m ρ c) (Proc.devRef .tc main_arg4) = _
  dsimp only [hostOps2]
  after_results
  exact W4_arg4 m ρ c
theorem W5_arg5 : W5 m ρ c (Proc.devRef .tc main_arg5) = (m ((c : Thread nD τ).loc main_arg5)) := by
  show StableHlo.after hostOps2 (W4 m ρ c) (Proc.devRef .tc main_arg5) = _
  dsimp only [hostOps2]
  after_results
  exact W4_arg5 m ρ c
theorem W5_arg6 : W5 m ρ c (Proc.devRef .tc main_arg6) = (m ((c : Thread nD τ).loc main_arg6)) := by
  show StableHlo.after hostOps2 (W4 m ρ c) (Proc.devRef .tc main_arg6) = _
  dsimp only [hostOps2]
  after_results
  exact W4_arg6 m ρ c
theorem W5_v8 : W5 m ρ c (Proc.devRef .tc main_v8) = (shapeCast S50000x1 (deg (m ((c : Thread nD τ).loc main_arg1))) shapeCasts_S50000_S50000x1) := by
  show StableHlo.after hostOps2 (W4 m ρ c) (Proc.devRef .tc main_v8) = _
  dsimp only [hostOps2]
  after_results
  exact W4_v8 m ρ c
theorem W5_v44 : W5 m ρ c (Proc.devRef .tc main_v44) = (step (wsl1 (m ((c : Thread nD τ).loc main_arg2))) (wsl1 (m ((c : Thread nD τ).loc main_arg4))) (bsl1 (m ((c : Thread nD τ).loc main_arg3))) (m ((c : Thread nD τ).loc main_arg1)) (step (wsl0 (m ((c : Thread nD τ).loc main_arg2))) (wsl0 (m ((c : Thread nD τ).loc main_arg4))) (bsl0 (m ((c : Thread nD τ).loc main_arg3))) (m ((c : Thread nD τ).loc main_arg1)) (m ((c : Thread nD τ).loc main_arg0)))) := by
  show StableHlo.after hostOps2 (W4 m ρ c) (Proc.devRef .tc main_v44) = _
  dsimp only [hostOps2]
  after_results
  exact W4_v44 m ρ c
set_option maxHeartbeats 4000000 in
theorem W5_v54 : W5 m ρ c (Proc.devRef .tc main_v54) = agg (step (wsl1 (m ((c : Thread nD τ).loc main_arg2))) (wsl1 (m ((c : Thread nD τ).loc main_arg4))) (bsl1 (m ((c : Thread nD τ).loc main_arg3))) (m ((c : Thread nD τ).loc main_arg1)) (step (wsl0 (m ((c : Thread nD τ).loc main_arg2))) (wsl0 (m ((c : Thread nD τ).loc main_arg4))) (bsl0 (m ((c : Thread nD τ).loc main_arg3))) (m ((c : Thread nD τ).loc main_arg1)) (m ((c : Thread nD τ).loc main_arg0)))) (m ((c : Thread nD τ).loc main_arg1)) := by
  show StableHlo.after hostOps2 (W4 m ρ c) (Proc.devRef .tc main_v54) = _
  dsimp only [hostOps2]
  after_results_simp
  simp only [W4_v1 m ρ c, W4_v3 m ρ c, W4_v44 m ρ c]
  rfl
theorem W5_v56 : W5 m ρ c (Proc.devRef .tc main_v56) = wsl2 (m ((c : Thread nD τ).loc main_arg2)) := by
  show StableHlo.after hostOps2 (W4 m ρ c) (Proc.devRef .tc main_v56) = _
  dsimp only [hostOps2]
  after_results
  simp only [W4_arg2 m ρ c]
  rfl
theorem W5_v58 : W5 m ρ c (Proc.devRef .tc main_v58) = wsl2 (m ((c : Thread nD τ).loc main_arg4)) := by
  show StableHlo.after hostOps2 (W4 m ρ c) (Proc.devRef .tc main_v58) = _
  dsimp only [hostOps2]
  after_results
  simp only [W4_arg4 m ρ c]
  rfl
theorem W5_v61 : W5 m ρ c (Proc.devRef .tc main_v61) = shapeCast S1x128 (bsl2 (m ((c : Thread nD τ).loc main_arg3))) shapeCasts_S128_S1x128 := by
  show StableHlo.after hostOps2 (W4 m ρ c) (Proc.devRef .tc main_v61) = _
  dsimp only [hostOps2]
  after_results
  simp only [W4_arg3 m ρ c]
  rfl

/-! ## Region 2: layer 2 -/

/-- The bias row the region reads, entry by entry, is layer 2's bias vector. -/
theorem brow2 : (fun q : Fin 128 => V5 m ρ c main_v61 (ix2 (0 : Fin 1) q)) = fun q => bsl2 (m ((c : Thread nD τ).loc main_arg3)) (ix1 q) :=
  funext fun q => (congrFun (W5_v61 m ρ c) (ix2 (0 : Fin 1) q)).trans (shapeCast_row_apply _ _ q)

/-- The degree column the region reads, entry by entry, is the degree vector. -/
theorem wcol2 : (fun r : Fin 50000 => V5 m ρ c main_v8 (ix2 r (0 : Fin 1))) = fun r => deg (m ((c : Thread nD τ).loc main_arg1)) (ix1 r) :=
  funext fun r => (congrFun (W5_v8 m ρ c) (ix2 r (0 : Fin 1))).trans (Cert.SupCon.Ker.shapeCast_a_a1_apply _ _ r 0)

/-- The region's output array: one more layer. -/
theorem W6_v62 : W6 m ρ c (Proc.devRef .tc main_v62) = (step (wsl2 (m ((c : Thread nD τ).loc main_arg2))) (wsl2 (m ((c : Thread nD τ).loc main_arg4))) (bsl2 (m ((c : Thread nD τ).loc main_arg3))) (m ((c : Thread nD τ).loc main_arg1)) (step (wsl1 (m ((c : Thread nD τ).loc main_arg2))) (wsl1 (m ((c : Thread nD τ).loc main_arg4))) (bsl1 (m ((c : Thread nD τ).loc main_arg3))) (m ((c : Thread nD τ).loc main_arg1)) (step (wsl0 (m ((c : Thread nD τ).loc main_arg2))) (wsl0 (m ((c : Thread nD τ).loc main_arg4))) (bsl0 (m ((c : Thread nD τ).loc main_arg3))) (m ((c : Thread nD τ).loc main_arg1)) (m ((c : Thread nD τ).loc main_arg0))))) := by
  refine (W6_arr m ρ c 6).trans ((Region2.out_eq (V5 m ρ) c).trans ?_)
  rw [brow2 m ρ c, wcol2 m ρ c]
  show layer (n := 50000) (W5 m ρ c (Proc.devRef .tc main_v54)) (W5 m ρ c (Proc.devRef .tc main_v44))
      (W5 m ρ c (Proc.devRef .tc main_v56)) (W5 m ρ c (Proc.devRef .tc main_v58)) _ _ = _
  rw [W5_v54 m ρ c, W5_v44 m ρ c, W5_v56 m ρ c, W5_v58 m ρ c]
  rfl

theorem W6_v1 : W6 m ρ c (Proc.devRef .tc main_v1) = src (m ((c : Thread nD τ).loc main_arg1)) :=
  (W6_of_ne m ρ c main_v1 (by decide)).trans (W5_v1 m ρ c)
theorem W6_v3 : W6 m ρ c (Proc.devRef .tc main_v3) = dst (m ((c : Thread nD τ).loc main_arg1)) :=
  (W6_of_ne m ρ c main_v3 (by decide)).trans (W5_v3 m ρ c)
theorem W6_arg2 : W6 m ρ c (Proc.devRef .tc main_arg2) = (m ((c : Thread nD τ).loc main_arg2)) :=
  (W6_of_ne m ρ c main_arg2 (by decide)).trans (W5_arg2 m ρ c)
theorem W6_arg3 : W6 m ρ c (Proc.devRef .tc main_arg3) = (m ((c : Thread nD τ).loc main_arg3)) :=
  (W6_of_ne m ρ c main_arg3 (by decide)).trans (W5_arg3 m ρ c)
theorem W6_arg4 : W6 m ρ c (Proc.devRef .tc main_arg4) = (m ((c : Thread nD τ).loc main_arg4)) :=
  (W6_of_ne m ρ c main_arg4 (by decide)).trans (W5_arg4 m ρ c)
theorem W6_arg5 : W6 m ρ c (Proc.devRef .tc main_arg5) = (m ((c : Thread nD τ).loc main_arg5)) :=
  (W6_of_ne m ρ c main_arg5 (by decide)).trans (W5_arg5 m ρ c)
theorem W6_arg6 : W6 m ρ c (Proc.devRef .tc main_arg6) = (m ((c : Thread nD τ).loc main_arg6)) :=
  (W6_of_ne m ρ c main_arg6 (by decide)).trans (W5_arg6 m ρ c)
theorem W6_v8 : W6 m ρ c (Proc.devRef .tc main_v8) = (shapeCast S50000x1 (deg (m ((c : Thread nD τ).loc main_arg1))) shapeCasts_S50000_S50000x1) :=
  (W6_arr m ρ c 5).trans (((dat2 (V5 m ρ) c).arrAt_in 5 rfl _).trans ((A_eq2 (V5 m ρ) c 5).trans (W5_v8 m ρ c)))

/-! ## The last host stretch and the final region -/

theorem W7_v62 : W7 m ρ c (Proc.devRef .tc main_v62) = (step (wsl2 (m ((c : Thread nD τ).loc main_arg2))) (wsl2 (m ((c : Thread nD τ).loc main_arg4))) (bsl2 (m ((c : Thread nD τ).loc main_arg3))) (m ((c : Thread nD τ).loc main_arg1)) (step (wsl1 (m ((c : Thread nD τ).loc main_arg2))) (wsl1 (m ((c : Thread nD τ).loc main_arg4))) (bsl1 (m ((c : Thread nD τ).loc main_arg3))) (m ((c : Thread nD τ).loc main_arg1)) (step (wsl0 (m ((c : Thread nD τ).loc main_arg2))) (wsl0 (m ((c : Thread nD τ).loc main_arg4))) (bsl0 (m ((c : Thread nD τ).loc main_arg3))) (m ((c : Thread nD τ).loc main_arg1)) (m ((c : Thread nD τ).loc main_arg0))))) := by
  show StableHlo.after hostOps3 (W6 m ρ c) (Proc.devRef .tc main_v62) = _
  dsimp only [hostOps3]
  after_results
  exact W6_v62 m ρ c
theorem W7_arg5 : W7 m ρ c (Proc.devRef .tc main_arg5) = (m ((c : Thread nD τ).loc main_arg5)) := by
  show StableHlo.after hostOps3 (W6 m ρ c) (Proc.devRef .tc main_arg5) = _
  dsimp only [hostOps3]
  after_results
  exact W6_arg5 m ρ c
theorem W7_v63 : W7 m ρ c (Proc.devRef .tc main_v63) = shapeCast S1x128 (m ((c : Thread nD τ).loc main_arg6)) shapeCasts_S128_S1x128 := by
  show StableHlo.after hostOps3 (W6 m ρ c) (Proc.devRef .tc main_v63) = _
  dsimp only [hostOps3]
  after_results
  simp only [W6_arg6 m ρ c]
  rfl

/-- The bias row the final region reads, entry by entry, is the final bias vector. -/
theorem brow3 : (fun q : Fin 128 => V7 m ρ c main_v63 (ix2 (0 : Fin 1) q)) = fun q => (m ((c : Thread nD τ).loc main_arg6)) (ix1 q) :=
  funext fun q => (congrFun (W7_v63 m ρ c) (ix2 (0 : Fin 1) q)).trans (shapeCast_row_apply _ _ q)

/-- THE RESULT: the last boundary's contents at the result buffer are the network of the argument arrays. -/
theorem result_eq : W8 m ρ c (Proc.devRef .tc main_v64)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 3).trans ((Region3.out_eq (V7 m ρ) c).trans ?_)
  rw [brow3 m ρ c]
  show final (n := 50000) (W7 m ρ c (Proc.devRef .tc main_v62)) (W7 m ρ c (Proc.devRef .tc main_arg5)) _ = _
  rw [W7_v62 m ρ c, W7_arg5 m ρ c]
  rfl

end Cert.KernelIdeal.KerValue

end
-- ==== Proof.GlueR.lean ====
/-
  The graph-structural host operations both programs share, as named functions of the argument arrays.

  The edge list `e` has two rows, the sources and the destinations of the edges.  A node's weight is the number of edges
  leaving it (`deg`: ones scattered-and-added at the sources).  The aggregated messages of node features `x` put at
  node `v` the sum of the rows x[src] over the edges that end in `v` (`agg`: a row gather at the sources — a negative index
  counted from the end — scattered-and-added at the destinations).  Layer `i` uses slice `i` of each stacked weight
  array (`wsl i`) and of the stacked biases (`bsl i`).  None of these is opened: both programs apply the same ones.
-/
import proofs.«133920_j73512660238652_1_alg».proof.Proof.Gen.ReferenceIdeal
import proofs.«133920_j73512660238652_1_alg».proof.Proof.LayerSpec

noncomputable section

namespace Cert.ReferenceIdeal.Glue

open Cert.ReferenceIdeal Cert.ReferenceIdeal.Gen Idealize.ShloMosaic Idealize.ShloMosaic.TcCoe Cert.GraphConv

/-- The edges' source nodes. -/
def src (e : (⟨S2x800000, .i32⟩ : BufTy).Contents (Elt Ideal)) : (⟨S800000, .i32⟩ : BufTy).Contents (Elt Ideal) :=
  shapeCast S800000 (extractStridedSlice S1x800000 ![0, 0] e slices_S2x800000_S1x800000_0_0) shapeCasts_S1x800000_S800000

/-- The edges' destination nodes. -/
def dst (e : (⟨S2x800000, .i32⟩ : BufTy).Contents (Elt Ideal)) : (⟨S800000, .i32⟩ : BufTy).Contents (Elt Ideal) :=
  shapeCast S800000 (extractStridedSlice S1x800000 ![1, 0] e slices_S2x800000_S1x800000_1_0) shapeCasts_S1x800000_S800000

/-- Each node's out-degree. -/
def deg (e : (⟨S2x800000, .i32⟩ : BufTy).Contents (Elt Ideal)) : (⟨S50000, .f32⟩ : BufTy).Contents (Elt Ideal) :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 (src e))
    (broadcastInDim S800000 ![] bcast_S_S800000 (constant (F := Ideal) S_ .f32 0x3F800000#32))

/-- The neighbours' rows of `x` summed into each destination node. -/
def agg (x : (⟨S50000x128, .f32⟩ : BufTy).Contents (Elt Ideal)) (e : (⟨S2x800000, .i32⟩ : BufTy).Contents (Elt Ideal)) :
    (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 (dst e))
    (Host.gather gather_S50000x128_S800000x1_S800000x128_1_0_n_n_0_1_1128 x
      (broadcastInDim S800000x1 ![0] bcast_S800000_S800000x1_0
        (select (cmpi .slt (src e) (broadcastInDim S800000 ![] bcast_S_S800000 (constantI S_ 32 0#32)))
          (addi (src e) (broadcastInDim S800000 ![] bcast_S_S800000 (constantI S_ 32 50000#32))) (src e))))

/-- Slice 0, 1, 2 of a stack of three square matrices. -/
def wsl0 (w : (⟨S3x128x128, .f32⟩ : BufTy).Contents (Elt Ideal)) : (⟨S128x128, .f32⟩ : BufTy).Contents (Elt Ideal) :=
  shapeCast S128x128 (extractStridedSlice S1x128x128 ![0, 0, 0] w slices_S3x128x128_S1x128x128_0_0_0) shapeCasts_S1x128x128_S128x128
def wsl1 (w : (⟨S3x128x128, .f32⟩ : BufTy).Contents (Elt Ideal)) : (⟨S128x128, .f32⟩ : BufTy).Contents (Elt Ideal) :=
  shapeCast S128x128 (extractStridedSlice S1x128x128 ![1, 0, 0] w slices_S3x128x128_S1x128x128_1_0_0) shapeCasts_S1x128x128_S128x128
def wsl2 (w : (⟨S3x128x128, .f32⟩ : BufTy).Contents (Elt Ideal)) : (⟨S128x128, .f32⟩ : BufTy).Contents (Elt Ideal) :=
  shapeCast S128x128 (extractStridedSlice S1x128x128 ![2, 0, 0] w slices_S3x128x128_S1x128x128_2_0_0) shapeCasts_S1x128x128_S128x128

/-- Row 0, 1, 2 of a stack of three bias vectors. -/
def bsl0 (b : (⟨S3x128, .f32⟩ : BufTy).Contents (Elt Ideal)) : (⟨S128, .f32⟩ : BufTy).Contents (Elt Ideal) :=
  shapeCast S128 (extractStridedSlice S1x128 ![0, 0] b slices_S3x128_S1x128_0_0) shapeCasts_S1x128_S128
def bsl1 (b : (⟨S3x128, .f32⟩ : BufTy).Contents (Elt Ideal)) : (⟨S128, .f32⟩ : BufTy).Contents (Elt Ideal) :=
  shapeCast S128 (extractStridedSlice S1x128 ![1, 0] b slices_S3x128_S1x128_1_0) shapeCasts_S1x128_S128
def bsl2 (b : (⟨S3x128, .f32⟩ : BufTy).Contents (Elt Ideal)) : (⟨S128, .f32⟩ : BufTy).Contents (Elt Ideal) :=
  shapeCast S128 (extractStridedSlice S1x128 ![2, 0] b slices_S3x128_S1x128_2_0) shapeCasts_S1x128_S128

/-- One layer from node features `x`: aggregate, transform with the given slices, weight by the degree, clamp at 0. -/
def step (wrel wroot : (⟨S128x128, .f32⟩ : BufTy).Contents (Elt Ideal)) (b : (⟨S128, .f32⟩ : BufTy).Contents (Elt Ideal))
    (e : (⟨S2x800000, .i32⟩ : BufTy).Contents (Elt Ideal)) (x : (⟨S50000x128, .f32⟩ : BufTy).Contents (Elt Ideal)) :
    (⟨S50000x128, .f32⟩ : BufTy).Contents (Elt Ideal) :=
  layer (n := 50000) (agg x e) x wrel wroot (fun q => b (ValueIdx.ix1 q)) (fun r => deg e (ValueIdx.ix1 r))

/-- The whole network: three layers, then the final linear map. -/
def net (x : (⟨S50000x128, .f32⟩ : BufTy).Contents (Elt Ideal)) (e : (⟨S2x800000, .i32⟩ : BufTy).Contents (Elt Ideal))
    (wrel : (⟨S3x128x128, .f32⟩ : BufTy).Contents (Elt Ideal)) (brel : (⟨S3x128, .f32⟩ : BufTy).Contents (Elt Ideal))
    (wroot : (⟨S3x128x128, .f32⟩ : BufTy).Contents (Elt Ideal)) (wlin : (⟨S128x128, .f32⟩ : BufTy).Contents (Elt Ideal))
    (blin : (⟨S128, .f32⟩ : BufTy).Contents (Elt Ideal)) : (⟨S50000x128, .f32⟩ : BufTy).Contents (Elt Ideal) :=
  final (n := 50000)
    (step (wsl2 wrel) (wsl2 wroot) (bsl2 brel) e
      (step (wsl1 wrel) (wsl1 wroot) (bsl1 brel) e
        (step (wsl0 wrel) (wsl0 wroot) (bsl0 brel) e x)))
    wlin (fun q => blin (ValueIdx.ix1 q))

end Cert.ReferenceIdeal.Glue

end
-- ==== Proof.RefValue.lean ====
/-
  The reference's result is the network.

  The reference computes each layer on all rows at once as  max(((msg·Wrel + b) + x·Wroot) · d, 0)  with the bias a vector
  broadcast along the rows and the degree a vector broadcast along the columns, and the final map as  x·W + b.  Entry by
  entry these are the layer and the final map of the specification (addition of extended reals is commutative and
  associative), so the run's result term — three such layers, each fed the aggregation of the previous one's output,
  then the final map — is `net` of the argument arrays.
-/
import proofs.«133920_j73512660238652_1_alg».proof.Proof.Gen.ReferenceIdeal.Run
import proofs.«133920_j73512660238652_1_alg».proof.Proof.GlueR

set_option maxRecDepth 16384

noncomputable section

namespace Cert.ReferenceIdeal.RefValue

open Cert.ReferenceIdeal Cert.ReferenceIdeal.Gen Cert.ReferenceIdeal.Value Cert.ReferenceIdeal.Glue Cert.GraphConv
open Idealize.ShloMosaic Idealize.ShloMosaic.TcCoe Idealize.ShloMosaic.ValueIdx Idealize.SL.Sem

/-- One layer in the host's spelling. -/
def hostLayer (msg x : FVec Ideal S50000x128 .f32) (wrel wroot : FVec Ideal S128x128 .f32)
    (b : FVec Ideal S128 .f32) (d : FVec Ideal S50000 .f32) : FVec Ideal S50000x128 .f32 :=
  maximumf (F := Ideal) (mulf (addf (addf (Host.dotGeneral dot_S50000x128_S128x128_S50000x128_1_0_0_1_n_n none msg wrel)
        (broadcastInDim S50000x128 ![0, 1] bcast_S1x128_S50000x128_0_1 (broadcastInDim S1x128 ![1] bcast_S128_S1x128_1 b)))
        (Host.dotGeneral dot_S50000x128_S128x128_S50000x128_1_0_0_1_n_n none x wroot))
      (broadcastInDim S50000x128 ![0, 1] bcast_S50000x1_S50000x128_0_1 (broadcastInDim S50000x1 ![0] bcast_S50000_S50000x1_0 d)))
    (broadcastInDim S50000x128 ![] bcast_S_S50000x128 (constant S_ .f32 0x00000000#32))

/-- The final map in the host's spelling. -/
def hostFinal (x : FVec Ideal S50000x128 .f32) (wl : FVec Ideal S128x128 .f32) (b : FVec Ideal S128 .f32) :
    FVec Ideal S50000x128 .f32 :=
  addf (F := Ideal) (Host.dotGeneral dot_S50000x128_S128x128_S50000x128_1_0_0_1_n_n none x wl)
    (broadcastInDim S50000x128 ![0, 1] bcast_S1x128_S50000x128_0_1 (broadcastInDim S1x128 ![1] bcast_S128_S1x128_1 b))

theorem hostLayer_eq (msg x : FVec Ideal S50000x128 .f32) (wrel wroot : FVec Ideal S128x128 .f32)
    (b : FVec Ideal S128 .f32) (d : FVec Ideal S50000 .f32) :
    hostLayer msg x wrel wroot b d
      = layer (n := 50000) msg x wrel wroot (fun q => b (ix1 q)) (fun r => d (ix1 r)) := by
  funext i
  obtain ⟨r, j, rfl⟩ : ∃ (r : Fin 50000) (j : Fin 128), i = ix2 r j := ⟨i 0, i 1, eq_ix2 i⟩
  show _ = layerAt (n := 50000) msg x wrel wroot (fun q => b (ix1 q)) (fun r => d (ix1 r)) r j
  unfold hostLayer
  exact host_layer_apply msg x wrel wroot b d _ _ _ _ _ _ r j

theorem hostFinal_eq (x : FVec Ideal S50000x128 .f32) (wl : FVec Ideal S128x128 .f32) (b : FVec Ideal S128 .f32) :
    hostFinal x wl b = final (n := 50000) x wl (fun q => b (ix1 q)) := by
  funext i
  obtain ⟨r, j, rfl⟩ : ∃ (r : Fin 50000) (j : Fin 128), i = ix2 r j := ⟨i 0, i 1, eq_ix2 i⟩
  show _ = finalAt (n := 50000) x wl (fun q => b (ix1 q)) r j
  unfold hostFinal
  exact host_final_apply x wl b _ _ _ r j

/-- One layer of the reference from node features `x`. -/
def hostStep (wrel wroot : FVec Ideal S128x128 .f32) (b : FVec Ideal S128 .f32) (e : (⟨S2x800000, .i32⟩ : BufTy).Contents (Elt Ideal))
    (x : FVec Ideal S50000x128 .f32) : FVec Ideal S50000x128 .f32 :=
  hostLayer (agg x e) x wrel wroot b (deg e)

theorem hostStep_eq (wrel wroot : FVec Ideal S128x128 .f32) (b : FVec Ideal S128 .f32) (e : (⟨S2x800000, .i32⟩ : BufTy).Contents (Elt Ideal))
    (x : FVec Ideal S50000x128 .f32) : hostStep wrel wroot b e x = step wrel wroot b e x := by
  unfold hostStep step
  exact hostLayer_eq _ _ _ _ _ _

/-- The run's result term, layer by layer. -/
theorem res_eq (m : (ℓ : Loc nD τ sig) → Buf (Elt Ideal) ℓ) (c : Dev nD) :
    res_main_v87 (F := Ideal) m c
      = hostFinal
          (hostStep (wsl2 (m ((c.tc : Thread nD τ).loc main_arg2))) (wsl2 (m ((c.tc : Thread nD τ).loc main_arg4))) (bsl2 (m ((c.tc : Thread nD τ).loc main_arg3))) (m ((c.tc : Thread nD τ).loc main_arg1))
            (hostStep (wsl1 (m ((c.tc : Thread nD τ).loc main_arg2))) (wsl1 (m ((c.tc : Thread nD τ).loc main_arg4))) (bsl1 (m ((c.tc : Thread nD τ).loc main_arg3))) (m ((c.tc : Thread nD τ).loc main_arg1))
              (hostStep (wsl0 (m ((c.tc : Thread nD τ).loc main_arg2))) (wsl0 (m ((c.tc : Thread nD τ).loc main_arg4))) (bsl0 (m ((c.tc : Thread nD τ).loc main_arg3))) (m ((c.tc : Thread nD τ).loc main_arg1)) (m ((c.tc : Thread nD τ).loc main_arg0)))))
          (m ((c.tc : Thread nD τ).loc main_arg5)) (m ((c.tc : Thread nD τ).loc main_arg6)) := by
  unfold res_main_v87
  rfl

/-- The reference's result is the network of its argument arrays. -/
theorem res_net (m : (ℓ : Loc nD τ sig) → Buf (Elt Ideal) ℓ) (c : Dev nD) :
    res_main_v87 (F := Ideal) m c
      = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [res_eq, hostFinal_eq, hostStep_eq, hostStep_eq, hostStep_eq]
  rfl

end Cert.ReferenceIdeal.RefValue

end
-- ==== Proof.lean ====
/-
  A three-layer graph convolution followed by a linear map: the kernel against its reference, over the extended reals.

  Both programs keep the graph-structural part on the host — the out-degree of every node, and per layer the sum of
  the neighbours' feature rows — and apply the same operations to the same arrays there.  They differ in the dense
  part of each layer.  The kernel runs it as a pipelined region over ten blocks of 5000 rows, computing
  (msg·Wrel + x·Wroot) + b, times the degree, clamped at 0, the bias read from a one-row matrix and the degree from a
  one-column matrix; the reference computes (msg·Wrel + b) + x·Wroot on all rows, the bias and the degree broadcast
  from vectors.  Row by row these are one expression, addition of extended reals being commutative and associative
  (Proof/LayerSpec.lean); every row of a region's output is written by exactly one grid point from that row of its
  inputs (Proof/Region0.lean … Region3.lean); folding the boundaries of @main gives the kernel's result as the network
  of its arguments (Proof/KerValue.lean), and the reference's composed term is the same network (Proof/RefValue.lean).
  Finiteness of the inputs is not used.  The ideal pass rewrote nothing, so `preserves` is trivial; the three frames
  are the generated ones.
-/
import proofs.«133920_j73512660238652_1_alg».proof.Defs
import proofs.«133920_j73512660238652_1_alg».proof.Proof.Gen.Kernel
import proofs.«133920_j73512660238652_1_alg».proof.Proof.Gen.Kernel.Frame
import proofs.«133920_j73512660238652_1_alg».proof.Proof.Gen.KernelIdeal
import proofs.«133920_j73512660238652_1_alg».proof.Proof.Gen.KernelIdeal.Frame
import proofs.«133920_j73512660238652_1_alg».proof.Proof.Gen.ReferenceIdeal
import proofs.«133920_j73512660238652_1_alg».proof.Proof.Gen.ReferenceIdeal.Run
import proofs.«133920_j73512660238652_1_alg».proof.Proof.Gen.Pre_finite_inputs
import proofs.«133920_j73512660238652_1_alg».proof.Proof.RunValue
import proofs.«133920_j73512660238652_1_alg».proof.Proof.KerValue
import proofs.«133920_j73512660238652_1_alg».proof.Proof.RefValue

set_option maxRecDepth 16384

noncomputable section

namespace Cert.Proof

open Idealize.ShloMosaic Idealize.ShloMosaic.TcCoe Idealize.SL.Sem

/-- The shared network is one function, whichever program's side conditions its operations are stated with. -/
theorem net_eq : @Cert.ReferenceIdeal.Glue.net = @Cert.KernelIdeal.Glue.net := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the network of the (agreeing) argument arrays in their result buffers. -/
theorem algebraic : Cert.algebraic_KernelIdeal_ReferenceIdeal := by
  intro m ρ m' ρ' _ hagree
  refine ⟨fun c => Cert.KernelIdeal.Glue.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KerValue.result_eq m ρ c), (h c).2⟩)
      (Cert.KernelIdeal.RunValue.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6⟩ := hagree c
    rw [Cert.ReferenceIdeal.RefValue.res_net, h0, h1, h2, h3, h4, h5, h6, net_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
